-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x600000 : Shape := ⟨2, ![2, 600000]⟩
abbrev S128x16 : Shape := ⟨2, ![128, 16]⟩
abbrev S128 : Shape := ⟨1, ![128]⟩
abbrev S128x128 : Shape := ⟨2, ![128, 128]⟩
abbrev S4x128 : Shape := ⟨2, ![4, 128]⟩
abbrev S4 : Shape := ⟨1, ![4]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg12 : FVec F S4 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S4 .f32 := Host.absf main_arg12
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  main_v58

def fn_part2 {F : FTy → Type} [FloatOps F] (main_arg8 : FVec F S128x128 .f32) (main_arg9 : FVec F S128x128 .f32) (main_arg10 : FVec F S128 .f32) (main_arg11 : FVec F S4x128 .f32) (main_arg12 : FVec F S4 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S4x128 .f32 := Host.absf main_arg11
  let main_cst_18 : FVec F S_ .f32 := constant S_ .f32 0x7F800000#32
  let main_v50 : FVec F S4x128 .f32 := broadcastInDim S4x128 ![] bcast_S_S4x128 main_cst_18
  fn_part3 (F := F) main_arg12 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S4x128 .f32) (main_arg12 : FVec F S4 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x16 .f32) (main_arg1 : IVec S2x600000 32) (main_arg2 : FVec F S128x16 .f32) (main_arg3 : FVec F S128x16 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S4x128 .f32) (main_arg12 : FVec F S4 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S128x16 .f32 := Host.absf main_arg3
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x16 : Shape := ⟨2, ![50000, 16]⟩
abbrev S2x600000 : Shape := ⟨2, ![2, 600000]⟩
abbrev S128x16 : Shape := ⟨2, ![128, 16]⟩
abbrev S128 : Shape := ⟨1, ![128]⟩
abbrev S128x128 : Shape := ⟨2, ![128, 128]⟩
abbrev S4x128 : Shape := ⟨2, ![4, 128]⟩
abbrev S4 : Shape := ⟨1, ![4]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S600000x16 : Shape := ⟨2, ![600000, 16]⟩
abbrev S16x128 : Shape := ⟨2, ![16, 128]⟩
abbrev S50000x128 : Shape := ⟨2, ![50000, 128]⟩
abbrev S5000x16 : Shape := ⟨2, ![5000, 16]⟩
abbrev S5000x128 : Shape := ⟨2, ![5000, 128]⟩
abbrev S1x128 : Shape := ⟨2, ![1, 128]⟩
abbrev S600000x128 : Shape := ⟨2, ![600000, 128]⟩
abbrev S128x4 : Shape := ⟨2, ![128, 4]⟩
abbrev S50000x4 : Shape := ⟨2, ![50000, 4]⟩
abbrev S5000x4 : Shape := ⟨2, ![5000, 4]⟩
abbrev S1x4 : Shape := ⟨2, ![1, 4]⟩

abbrev nBuf : Space → Nat
  | .hbm => 84
  | .vmem => 29
  | .smem => 0
  | _ => 0

abbrev bufTy : (tb : Table) → Fin (tcTables nBuf tb) → BufTy
  | .hbm, ⟨0, _⟩ => ⟨S50000x16, .f32⟩
  | .hbm, ⟨1, _⟩ => ⟨S2x600000, .i32⟩
  | .hbm, ⟨2, _⟩ => ⟨S128x16, .f32⟩
  | .hbm, ⟨3, _⟩ => ⟨S128x16, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S4x128, .f32⟩
  | .hbm, ⟨12, _⟩ => ⟨S4, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .f32⟩
  | .hbm, ⟨18, _⟩ => ⟨S600000x1, .f32⟩
  | .hbm, ⟨19, _⟩ => ⟨S_, .f32⟩
  | .hbm, ⟨20, _⟩ => ⟨S50000x1, .f32⟩
  | .hbm, ⟨21, _⟩ => ⟨S600000x1, .i32⟩
  | .hbm, ⟨22, _⟩ => ⟨S50000x1, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S_, .f32⟩
  | .hbm, ⟨27, _⟩ => ⟨S50000x1, .f32⟩
  | .hbm, ⟨28, _⟩ => ⟨S50000x1, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x16, .f32⟩
  | .hbm, ⟨38, _⟩ => ⟨S_, .f32⟩
  | .hbm, ⟨39, _⟩ => ⟨S50000x16, .f32⟩
  | .hbm, ⟨40, _⟩ => ⟨S600000x1, .i32⟩
  | .hbm, ⟨41, _⟩ => ⟨S50000x16, .f32⟩
  | .hbm, ⟨42, _⟩ => ⟨S50000x16, .f32⟩
  | .hbm, ⟨43, _⟩ => ⟨S50000x16, .f32⟩
  | .hbm, ⟨44, _⟩ => ⟨S16x128, .f32⟩
  | .hbm, ⟨45, _⟩ => ⟨S16x128, .f32⟩
  | .hbm, ⟨46, _⟩ => ⟨S50000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S_, .f32⟩
  | .hbm, ⟨57, _⟩ => ⟨S50000x128, .f32⟩
  | .hbm, ⟨58, _⟩ => ⟨S600000x1, .i32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S128x128, .f32⟩
  | .hbm, ⟨63, _⟩ => ⟨S128x128, .f32⟩
  | .hbm, ⟨64, _⟩ => ⟨S50000x128, .f32⟩
  | .hbm, ⟨65, _⟩ => ⟨S_, .i32⟩
  | .hbm, ⟨66, _⟩ => ⟨S600000, .i32⟩
  | .hbm, ⟨67, _⟩ => ⟨S600000, .i1⟩
  | .hbm, ⟨68, _⟩ => ⟨S_, .i32⟩
  | .hbm, ⟨69, _⟩ => ⟨S600000, .i32⟩
  | .hbm, ⟨70, _⟩ => ⟨S600000, .i32⟩
  | .hbm, ⟨71, _⟩ => ⟨S600000, .i32⟩
  | .hbm, ⟨72, _⟩ => ⟨S600000x1, .i32⟩
  | .hbm, ⟨73, _⟩ => ⟨S600000x128, .f32⟩
  | .hbm, ⟨74, _⟩ => ⟨S_, .f32⟩
  | .hbm, ⟨75, _⟩ => ⟨S50000x128, .f32⟩
  | .hbm, ⟨76, _⟩ => ⟨S600000x1, .i32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S128x128, .f32⟩
  | .hbm, ⟨81, _⟩ => ⟨S128x128, .f32⟩
  | .hbm, ⟨82, _⟩ => ⟨S128x4, .f32⟩
  | .hbm, ⟨83, _⟩ => ⟨S50000x4, .f32⟩
  | .local _ .vmem, ⟨0, _⟩ => ⟨S5000x16, .f32⟩
  | .local _ .vmem, ⟨1, _⟩ => ⟨S5000x16, .f32⟩
  | .local _ .vmem, ⟨2, _⟩ => ⟨S5000x16, .f32⟩
  | .local _ .vmem, ⟨3, _⟩ => ⟨S5000x16, .f32⟩
  | .local _ .vmem, ⟨4, _⟩ => ⟨S16x128, .f32⟩
  | .local _ .vmem, ⟨5, _⟩ => ⟨S16x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S128x4, .f32⟩
  | .local _ .vmem, ⟨26, _⟩ => ⟨S4, .f32⟩
  | .local _ .vmem, ⟨27, _⟩ => ⟨S5000x4, .f32⟩
  | .local _ .vmem, ⟨28, _⟩ => ⟨S5000x4, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_8 : Ref sig .tc := ⟨.hbm, 65, rfl⟩
abbrev main_v42 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x4 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S4 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x4 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000x1 : S_.BroadcastsInDim S600000x1 (![] : Fin 0 → Fin S600000x1.rank)
  bcast_S_S50000x1 : S_.BroadcastsInDim S50000x1 (![] : Fin 0 → Fin S50000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  transposes_S128x16_S16x128_1_0 : S128x16.Transposes [1, 0] S16x128
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S4x128_S128x4_1_0 : S4x128.Transposes [1, 0] S128x4
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S4_S4_0 : ∀ a, (![0] : Fin 1 → Nat) a + S4.size a ≤ S4.size a
  h_S4 : 0 < S4.numel
  shapeCasts_S4_S1x4 : S4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S50000x1_S600000x1_S600000x1_1_0_0_1_wf : ScatterDims.WF S50000x1 S600000x1 S600000x1 [1] [0] [0] 1
  gather_S50000x16_S600000x1_S600000x16_1_0_n_n_0_1_116_wf : GatherDims.WF S50000x16 S600000x1 S600000x16 [1] [0] [] [0] [] 1 ![1, 16]
  scatter_S50000x16_S600000x1_S600000x16_1_0_0_1_wf : ScatterDims.WF S50000x16 S600000x1 S600000x16 [1] [0] [0] 1
  dot_S5000x16_S16x128_S5000x128_1_0_0_1_n_n_wf : DotDims.WF S5000x16 S16x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x4_S5000x4_1_0_0_1_n_n_wf : DotDims.WF S5000x128 S128x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S50000x16.size a
  hwx0_1 : ∀ i : grid0.Coords, EltTy.bits .f32 = 32 ∨ (Rect.block (s := S50000x16) S5000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x4.size a ≤ S128x4.size a
  hwx2_5 : ∀ i : grid2.Coords, EltTy.bits .f32 = 32 ∨ (Rect.block (s := S128x4) S128x4.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S4.size a ≤ S4.size a
  hwx2_6 : ∀ i : grid2.Coords, EltTy.bits .f32 = 32 ∨ (Rect.block (s := S4) S4.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x4.size a ≤ S50000x4.size a
  hwx2_7 : ∀ i : grid2.Coords, EltTy.bits .f32 = 32 ∨ (Rect.block (s := S50000x4) S5000x4.size (cc2_transform_7 i) (hinb2_7 i)).WholeWords (EltTy.packing .f32)

variable [Facts₀]

def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def gather_S50000x16_S600000x1_S600000x16_1_0_n_n_0_1_116 : GatherDims S50000x16 S600000x1 S600000x16 where
  offsetDims := [1]
  collapsedSliceDims := [0]
  operandBatchingDims := []
  startIndicesBatchingDims := []
  startIndexMap := [0]
  indexVectorDim := 1
  sliceSizes := ![1, 16]
  wf := gather_S50000x16_S600000x1_S600000x16_1_0_n_n_0_1_116_wf
def scatter_S50000x16_S600000x1_S600000x16_1_0_0_1 : ScatterDims S50000x16 S600000x1 S600000x16 where
  updateWindowDims := [1]
  insertedWindowDims := [0]
  scatterDimsToOperandDims := [0]
  indexVectorDim := 1
  wf := scatter_S50000x16_S600000x1_S600000x16_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf

abbrev win0_0 : Pipeline.Window sig grid0 :=
  Pipeline.Window.ofSpec (Memref.whole main_v23) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S128x4.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S4.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S5000x4.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x16 : Shape := ⟨2, ![50000, 16]⟩
abbrev S2x600000 : Shape := ⟨2, ![2, 600000]⟩
abbrev S128x16 : Shape := ⟨2, ![128, 16]⟩
abbrev S128 : Shape := ⟨1, ![128]⟩
abbrev S128x128 : Shape := ⟨2, ![128, 128]⟩
abbrev S4x128 : Shape := ⟨2, ![4, 128]⟩
abbrev S4 : Shape := ⟨1, ![4]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x16 : Shape := ⟨2, ![600000, 16]⟩
abbrev S50000x1 : Shape := ⟨2, ![50000, 1]⟩
abbrev S16x128 : Shape := ⟨2, ![16, 128]⟩
abbrev S50000x128 : Shape := ⟨2, ![50000, 128]⟩
abbrev S1x128 : Shape := ⟨2, ![1, 128]⟩
abbrev S600000x128 : Shape := ⟨2, ![600000, 128]⟩
abbrev S128x4 : Shape := ⟨2, ![128, 4]⟩
abbrev S50000x4 : Shape := ⟨2, ![50000, 4]⟩
abbrev S1x4 : Shape := ⟨2, ![1, 4]⟩

abbrev nBuf : Space → Nat
  | .hbm => 127
  | .vmem => 0
  | .smem => 0
  | _ => 0

abbrev bufTy : (tb : Table) → Fin (tcTables nBuf tb) → BufTy
  | .hbm, ⟨0, _⟩ => ⟨S50000x16, .f32⟩
  | .hbm, ⟨1, _⟩ => ⟨S2x600000, .i32⟩
  | .hbm, ⟨2, _⟩ => ⟨S128x16, .f32⟩
  | .hbm, ⟨3, _⟩ => ⟨S128x16, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S4x128, .f32⟩
  | .hbm, ⟨12, _⟩ => ⟨S4, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x16, .f32⟩
  | .hbm, ⟨26, _⟩ => ⟨S_, .f32⟩
  | .hbm, ⟨27, _⟩ => ⟨S50000x16, .f32⟩
  | .hbm, ⟨28, _⟩ => ⟨S600000x1, .i32⟩
  | .hbm, ⟨29, _⟩ => ⟨S50000x16, .f32⟩
  | .hbm, ⟨30, _⟩ => ⟨S_, .f32⟩
  | .hbm, ⟨31, _⟩ => ⟨S600000x1, .f32⟩
  | .hbm, ⟨32, _⟩ => ⟨S_, .f32⟩
  | .hbm, ⟨33, _⟩ => ⟨S50000x1, .f32⟩
  | .hbm, ⟨34, _⟩ => ⟨S600000x1, .i32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x16, .f32⟩
  | .hbm, ⟨40, _⟩ => ⟨S50000x16, .f32⟩
  | .hbm, ⟨41, _⟩ => ⟨S16x128, .f32⟩
  | .hbm, ⟨42, _⟩ => ⟨S50000x128, .f32⟩
  | .hbm, ⟨43, _⟩ => ⟨S16x128, .f32⟩
  | .hbm, ⟨44, _⟩ => ⟨S50000x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S600000x128, .f32⟩
  | .hbm, ⟨61, _⟩ => ⟨S_, .f32⟩
  | .hbm, ⟨62, _⟩ => ⟨S50000x128, .f32⟩
  | .hbm, ⟨63, _⟩ => ⟨S600000x1, .i32⟩
  | .hbm, ⟨64, _⟩ => ⟨S50000x128, .f32⟩
  | .hbm, ⟨65, _⟩ => ⟨S_, .f32⟩
  | .hbm, ⟨66, _⟩ => ⟨S600000x1, .f32⟩
  | .hbm, ⟨67, _⟩ => ⟨S_, .f32⟩
  | .hbm, ⟨68, _⟩ => ⟨S50000x1, .f32⟩
  | .hbm, ⟨69, _⟩ => ⟨S600000x1, .i32⟩
  | .hbm, ⟨70, _⟩ => ⟨S50000x1, .f32⟩
  | .hbm, ⟨71, _⟩ => ⟨S_, .f32⟩
  | .hbm, ⟨72, _⟩ => ⟨S50000x1, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S128x128, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S_, .i32⟩
  | .hbm, ⟨88, _⟩ => ⟨S600000, .i32⟩
  | .hbm, ⟨89, _⟩ => ⟨S600000, .i1⟩
  | .hbm, ⟨90, _⟩ => ⟨S_, .i32⟩
  | .hbm, ⟨91, _⟩ => ⟨S600000, .i32⟩
  | .hbm, ⟨92, _⟩ => ⟨S600000, .i32⟩
  | .hbm, ⟨93, _⟩ => ⟨S600000, .i32⟩
  | .hbm, ⟨94, _⟩ => ⟨S600000x1, .i32⟩
  | .hbm, ⟨95, _⟩ => ⟨S600000x128, .f32⟩
  | .hbm, ⟨96, _⟩ => ⟨S_, .f32⟩
  | .hbm, ⟨97, _⟩ => ⟨S50000x128, .f32⟩
  | .hbm, ⟨98, _⟩ => ⟨S600000x1, .i32⟩
  | .hbm, ⟨99, _⟩ => ⟨S50000x128, .f32⟩
  | .hbm, ⟨100, _⟩ => ⟨S_, .f32⟩
  | .hbm, ⟨101, _⟩ => ⟨S600000x1, .f32⟩
  | .hbm, ⟨102, _⟩ => ⟨S_, .f32⟩
  | .hbm, ⟨103, _⟩ => ⟨S50000x1, .f32⟩
  | .hbm, ⟨104, _⟩ => ⟨S600000x1, .i32⟩
  | .hbm, ⟨105, _⟩ => ⟨S50000x1, .f32⟩
  | .hbm, ⟨106, _⟩ => ⟨S_, .f32⟩
  | .hbm, ⟨107, _⟩ => ⟨S50000x1, .f32⟩
  | .hbm, ⟨108, _⟩ => ⟨S50000x1, .f32⟩
  | .hbm, ⟨109, _⟩ => ⟨S50000x128, .f32⟩
  | .hbm, ⟨110, _⟩ => ⟨S50000x128, .f32⟩
  | .hbm, ⟨111, _⟩ => ⟨S128x128, .f32⟩
  | .hbm, ⟨112, _⟩ => ⟨S50000x128, .f32⟩
  | .hbm, ⟨113, _⟩ => ⟨S128x128, .f32⟩
  | .hbm, ⟨114, _⟩ => ⟨S50000x128, .f32⟩
  | .hbm, ⟨115, _⟩ => ⟨S50000x128, .f32⟩
  | .hbm, ⟨116, _⟩ => ⟨S1x128, .f32⟩
  | .hbm, ⟨117, _⟩ => ⟨S50000x128, .f32⟩
  | .hbm, ⟨118, _⟩ => ⟨S50000x128, .f32⟩
  | .hbm, ⟨119, _⟩ => ⟨S_, .f32⟩
  | .hbm, ⟨120, _⟩ => ⟨S50000x128, .f32⟩
  | .hbm, ⟨121, _⟩ => ⟨S50000x128, .f32⟩
  | .hbm, ⟨122, _⟩ => ⟨S128x4, .f32⟩
  | .hbm, ⟨123, _⟩ => ⟨S50000x4, .f32⟩
  | .hbm, ⟨124, _⟩ => ⟨S1x4, .f32⟩
  | .hbm, ⟨125, _⟩ => ⟨S50000x4, .f32⟩
  | .hbm, ⟨126, _⟩ => ⟨S50000x4, .f32⟩
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_c_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_call2_cst : Ref sig .tc := ⟨.hbm, 119, rfl⟩
abbrev main_call2_v0 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x16 : S_.BroadcastsInDim S50000x16 (![] : Fin 0 → Fin S50000x16.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x16_0_1 : S50000x1.BroadcastsInDim S50000x16 (![0, 1] : Fin 2 → Fin S50000x16.rank)
  transposes_S128x16_S16x128_1_0 : S128x16.Transposes [1, 0] S16x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  transposes_S4x128_S128x4_1_0 : S4x128.Transposes [1, 0] S128x4
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  gather_S50000x16_S600000x1_S600000x16_1_0_n_n_0_1_116_wf : GatherDims.WF S50000x16 S600000x1 S600000x16 [1] [0] [] [0] [] 1 ![1, 16]
  scatter_S50000x16_S600000x1_S600000x16_1_0_0_1_wf : ScatterDims.WF S50000x16 S600000x1 S600000x16 [1] [0] [0] 1
  scatter_S50000x1_S600000x1_S600000x1_1_0_0_1_wf : ScatterDims.WF S50000x1 S600000x1 S600000x1 [1] [0] [0] 1
  dot_S50000x16_S16x128_S50000x128_1_0_0_1_n_n_wf : DotDims.WF S50000x16 S16x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x4_S50000x4_1_0_0_1_n_n_wf : DotDims.WF S50000x128 S128x4 S50000x4 [1] [0] [0] [1] [] []

variable [Facts₀]

def gather_S50000x16_S600000x1_S600000x16_1_0_n_n_0_1_116 : GatherDims S50000x16 S600000x1 S600000x16 where
  offsetDims := [1]
  collapsedSliceDims := [0]
  operandBatchingDims := []
  startIndicesBatchingDims := []
  startIndexMap := [0]
  indexVectorDim := 1
  sliceSizes := ![1, 16]
  wf := gather_S50000x16_S600000x1_S600000x16_1_0_n_n_0_1_116_wf
def scatter_S50000x16_S600000x1_S600000x16_1_0_0_1 : ScatterDims S50000x16 S600000x1 S600000x16 where
  updateWindowDims := [1]
  insertedWindowDims := [0]
  scatterDimsToOperandDims := [0]
  indexVectorDim := 1
  wf := scatter_S50000x16_S600000x1_S600000x16_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x4_S50000x4_1_0_0_1_n_n : DotDims S50000x128 S128x4 S50000x4 where
  lhsContracting := [1]
  rhsContracting := [0]
  lhsNonContracting := [0]
  rhsNonContracting := [1]
  lhsBatch := []
  rhsBatch := []
  wf := dot_S50000x128_S128x4_S50000x4_1_0_0_1_n_n_wf

class Facts : Prop extends Facts₀ where

variable [Facts]
-- ==== Proof.Spec.lean ====
/-
  What the network computes, as one function of its argument arrays.

  A graph with 50000 nodes and 600000 edges (edge list `ei`: row 0 the sources, row 1 the destinations). One layer sends
  a node's features `h` to

      relu( mean(h) · Wlᵀ + h · Wrᵀ + b ),      mean(h)(n, ·) = ( Σ_{e : dst e = n} h(src e, ·) ) / max(deg n, 1),

  where the sum over incoming edges is a scatter-add of gathered rows, `deg n` is the scatter-add of ones, and a negative
  source index is first wrapped by adding 50000. Three such layers (16 → 128 → 128 → 128 features) are followed by the linear
  head `h · Whᵀ + bh` (128 → 4).

  The gather and the scatter-add are never opened: both programs apply the same two operations to the same operands, so
  they stay opaque functions here. Everything is written with the host's operations over literal shapes, generic in the
  float instance; `net` is the whole network. `meanMul` is the mean written as a product with the reciprocal
  `1 / max(deg, 1)`, and `meanMul_eq_mean` says that on the extended reals this is the quotient: a product with `1 · y⁻¹` is a
  product with `y⁻¹` whenever `y ≠ 0`, and `y = max(deg, 1) ≥ 1`.
-/
import proofs.«157790_j2173253452589_1_alg».proof.Proof.Gen.ReferenceIdeal
import Idealize.ShloMosaic.PureOps.Ideal
import Idealize.ShloMosaic.Lib.ValueIdx

noncomputable section

namespace Cert.Sage

open Cert.ReferenceIdeal Cert.ReferenceIdeal.Gen Idealize.ShloMosaic Idealize.ShloMosaic.TcCoe Idealize.SL.Sem

variable {F : FTy → Type} [FloatOps F]

/-- Arrays by shape (the element type is f32 unless said otherwise). -/
abbrev Arr (s : Shape) : Type := (⟨s, .f32⟩ : BufTy).Contents (Elt F)
abbrev Edges : Type := (⟨S2x600000, .i32⟩ : BufTy).Contents (Elt F)
abbrev IdxCol : Type := (⟨S600000x1, .i32⟩ : BufTy).Contents (Elt F)

/-! ## The edge list's two columns -/

/-- Row `r` of the edge list as a vector of 600000 indices. -/
def srcRow (ei : Edges (F := F)) : (⟨S600000, .i32⟩ : BufTy).Contents (Elt F) :=
  shapeCast _ (extractStridedSlice S1x600000 ![0, 0] ei slices_S2x600000_S1x600000_0_0) shapeCasts_S1x600000_S600000
def dstRow (ei : Edges (F := F)) : (⟨S600000, .i32⟩ : BufTy).Contents (Elt F) :=
  shapeCast _ (extractStridedSlice S1x600000 ![1, 0] ei slices_S2x600000_S1x600000_1_0) shapeCasts_S1x600000_S600000

/-- The source indices as a column, a negative one wrapped by adding the node count. -/
def srcCol (s : (⟨S600000, .i32⟩ : BufTy).Contents (Elt F)) : IdxCol (F := F) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)
/-- The destination indices as a column. -/
def dstCol (d : (⟨S600000, .i32⟩ : BufTy).Contents (Elt F)) : IdxCol (F := F) :=
  broadcastInDim S600000x1 ![0] bcast_S600000_S600000x1_0 d

/-! ## Degrees and the two spellings of the mean -/

/-- The in-degree of every node (a scatter-add of ones), as a column [50000, 1]. -/
def degree (d : (⟨S600000, .i32⟩ : BufTy).Contents (Elt F)) : Arr (F := F) S50000x1 :=
  Host.scatterAdd scatter_S50000x1_S600000x1_S600000x1_1_0_0_1 (broadcastInDim S50000x1 ![] bcast_S_S50000x1 (constant S_ .f32 0x00000000#32))
    (dstCol d) (broadcastInDim S600000x1 ![] bcast_S_S600000x1 (constant S_ .f32 0x3F800000#32))
/-- `max(deg, 1)`. -/
def degClamped (d : (⟨S600000, .i32⟩ : BufTy).Contents (Elt F)) : Arr (F := F) S50000x1 :=
  maximumf (degree d) (broadcastInDim S50000x1 ![] bcast_S_S50000x1 (constant S_ .f32 0x3F800000#32))
/-- `1 / max(deg, 1)`. -/
def degRecip (d : (⟨S600000, .i32⟩ : BufTy).Contents (Elt F)) : Arr (F := F) S50000x1 :=
  Host.divf (broadcastInDim S50000x1 ![] bcast_S_S50000x1 (constant S_ .f32 0x3F800000#32)) (degClamped d)

/-- The sum over incoming edges of the source rows, 16 features. -/
def edgeSum16 (x : Arr (F := F) S50000x16) (s d : (⟨S600000, .i32⟩ : BufTy).Contents (Elt F)) : Arr (F := F) S50000x16 :=
  Host.scatterAdd scatter_S50000x16_S600000x1_S600000x16_1_0_0_1 (broadcastInDim S50000x16 ![] bcast_S_S50000x16 (constant S_ .f32 0x00000000#32))
    (dstCol d) (Host.gather gather_S50000x16_S600000x1_S600000x16_1_0_n_n_0_1_116 x (srcCol s))
/-- The sum over incoming edges of the source rows, 128 features. -/
def edgeSum128 (h : Arr (F := F) S50000x128) (s d : (⟨S600000, .i32⟩ : BufTy).Contents (Elt F)) : Arr (F := F) S50000x128 :=
  Host.scatterAdd scatter_S50000x128_S600000x1_S600000x128_1_0_0_1 (broadcastInDim S50000x128 ![] bcast_S_S50000x128 (constant S_ .f32 0x00000000#32))
    (dstCol d) (Host.gather gather_S50000x128_S600000x1_S600000x128_1_0_n_n_0_1_1128 h (srcCol s))

/-- The mean over incoming edges as a quotient by `max(deg, 1)`. -/
def mean16 (x : Arr (F := F) S50000x16) (s d : (⟨S600000, .i32⟩ : BufTy).Contents (Elt F)) : Arr (F := F) S50000x16 :=
  Host.divf (edgeSum16 x s d) (broadcastInDim S50000x16 ![0, 1] bcast_S50000x1_S50000x16_0_1 (degClamped d))
def mean128 (h : Arr (F := F) S50000x128) (s d : (⟨S600000, .i32⟩ : BufTy).Contents (Elt F)) : Arr (F := F) S50000x128 :=
  Host.divf (edgeSum128 h s d) (broadcastInDim S50000x128 ![0, 1] bcast_S50000x1_S50000x128_0_1 (degClamped d))

/-- The mean over incoming edges as a product with `1 / max(deg, 1)`. -/
def meanMul16 (x : Arr (F := F) S50000x16) (s d : (⟨S600000, .i32⟩ : BufTy).Contents (Elt F)) : Arr (F := F) S50000x16 :=
  mulf (edgeSum16 x s d) (broadcastInDim S50000x16 ![0, 1] bcast_S50000x1_S50000x16_0_1 (degRecip d))
def meanMul128 (h : Arr (F := F) S50000x128) (s d : (⟨S600000, .i32⟩ : BufTy).Contents (Elt F)) : Arr (F := F) S50000x128 :=
  mulf (edgeSum128 h s d) (broadcastInDim S50000x128 ![0, 1] bcast_S50000x1_S50000x128_0_1 (degRecip d))

/-! ## One layer on the aggregated and the own features, the weights already transposed -/

/-- `relu(A · Wl + X · Wr + b)` for 16 input features: `Wl`, `Wr` are [16, 128]. -/
def dense16 (A X : Arr (F := F) S50000x16) (Wl Wr : Arr (F := F) S16x128) (b : Arr (F := F) S128) : Arr (F := F) S50000x128 :=
  maximumf
    (addf (addf (Host.dotGeneral dot_S50000x16_S16x128_S50000x128_1_0_0_1_n_n none A Wl)
        (Host.dotGeneral dot_S50000x16_S16x128_S50000x128_1_0_0_1_n_n none X Wr))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))
/-- `relu(A · Wl + X · Wr + b)` for 128 input features: `Wl`, `Wr` are [128, 128]. -/
def dense128 (A X : Arr (F := F) S50000x128) (Wl Wr : Arr (F := F) S128x128) (b : Arr (F := F) S128) : Arr (F := F) S50000x128 :=
  maximumf
    (addf (addf (Host.dotGeneral dot_S50000x128_S128x128_S50000x128_1_0_0_1_n_n none A Wl)
        (Host.dotGeneral dot_S50000x128_S128x128_S50000x128_1_0_0_1_n_n none X Wr))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))
/-- The linear head `H · Wh + bh`: `Wh` is [128, 4]. -/
def head (H : Arr (F := F) S50000x128) (Wh : Arr (F := F) S128x4) (bh : Arr (F := F) S4) : Arr (F := F) S50000x4 :=
  addf (Host.dotGeneral dot_S50000x128_S128x4_S50000x4_1_0_0_1_n_n none H Wh)
    (broadcastInDim S50000x4 ![0, 1] bcast_S1x4_S50000x4_0_1 (broadcastInDim S1x4 ![1] bcast_S4_S1x4_1 bh))

/-- The transposes of the weight matrices. -/
def tr16 (W : Arr (F := F) S128x16) : Arr (F := F) S16x128 := transpose S16x128 [1, 0] W transposes_S128x16_S16x128_1_0
def tr128 (W : Arr (F := F) S128x128) : Arr (F := F) S128x128 := transpose S128x128 [1, 0] W transposes_S128x128_S128x128_1_0
def tr4 (W : Arr (F := F) S4x128) : Arr (F := F) S128x4 := transpose S128x4 [1, 0] W transposes_S4x128_S128x4_1_0

/-! ## The network -/

/-- The three hidden layers with the mean as a quotient, then the head. -/
def net (x : Arr (F := F) S50000x16) (ei : Edges (F := F)) (Wl1 Wr1 : Arr (F := F) S128x16) (b1 : Arr (F := F) S128)
    (Wl2 Wr2 : Arr (F := F) S128x128) (b2 : Arr (F := F) S128) (Wl3 Wr3 : Arr (F := F) S128x128) (b3 : Arr (F := F) S128)
    (Wh : Arr (F := F) S4x128) (bh : Arr (F := F) S4) : Arr (F := F) S50000x4 :=
  let h1 := dense16 (mean16 x (srcRow ei) (dstRow ei)) x (tr16 Wl1) (tr16 Wr1) b1
  let h2 := dense128 (mean128 h1 (srcRow ei) (dstRow ei)) h1 (tr128 Wl2) (tr128 Wr2) b2
  let h3 := dense128 (mean128 h2 (srcRow ei) (dstRow ei)) h2 (tr128 Wl3) (tr128 Wr3) b3
  head h3 (tr4 Wh) bh

/-- The same with the mean as a product with the reciprocal. -/
def netMul (x : Arr (F := F) S50000x16) (ei : Edges (F := F)) (Wl1 Wr1 : Arr (F := F) S128x16) (b1 : Arr (F := F) S128)
    (Wl2 Wr2 : Arr (F := F) S128x128) (b2 : Arr (F := F) S128) (Wl3 Wr3 : Arr (F := F) S128x128) (b3 : Arr (F := F) S128)
    (Wh : Arr (F := F) S4x128) (bh : Arr (F := F) S4) : Arr (F := F) S50000x4 :=
  let h1 := dense16 (meanMul16 x (srcRow ei) (dstRow ei)) x (tr16 Wl1) (tr16 Wr1) b1
  let h2 := dense128 (meanMul128 h1 (srcRow ei) (dstRow ei)) h1 (tr128 Wl2) (tr128 Wr2) b2
  let h3 := dense128 (meanMul128 h2 (srcRow ei) (dstRow ei)) h2 (tr128 Wl3) (tr128 Wr3) b3
  head h3 (tr4 Wh) bh

end Cert.Sage

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.Payload.lean ====
/-
  One entry of a layer, on the extended reals.

  At row `p` and output feature `q` a layer is `max( Σ_k a_k · wl_k + Σ_k x_k · wr_k + b , 0 )`, where `a`, `x` are row `p` of
  the aggregated and the own features and `wl`, `wr` column `q` of the two (already transposed) weight matrices. A kernel
  body computes exactly this on a block of 5000 rows (two matrix products into zero accumulators, the bias row
  broadcast down the rows, a maximum with the zero splat; a change of float format is the identity), and the host's
  `dot_general` computes it on all 50000 rows. The last kernel body goes on to the head: entry `(p, j)` is
  `Σ_k layer(p, k) · wh(k, j) + bh(j)`.
-/
import proofs.«157790_j2173253452589_1_alg».proof.Proof.Gen.KernelIdeal.Skeleton
import proofs.«157790_j2173253452589_1_alg».proof.Proof.Spec
import proofs.«157790_j2173253452589_1_alg».proof.Proof.LibMatmulSum
import Idealize.ShloMosaic.Lib.Pipeline.Value
import Idealize.ShloMosaic.Lib.ValueLayout

noncomputable section

namespace Cert.Sage

open Idealize.ShloMosaic Idealize.ShloMosaic.TcCoe Idealize.ShloMosaic.ValueIdx

/-- One entry of a layer from a row of aggregated features `a`, the row of own features `x`, the two weight columns and
    the bias entry. -/
def layerAt {K : Nat} (a x wl wr : Fin K → EReal) (b : EReal) : EReal :=
  max ((∑ k, a k * wl k) + (∑ k, x k * wr k) + b) (Ideal.ofBits .f32 0x00000000#32)

/-! ## The host's spelling, at an index -/

/-- The bias row [128] → [1,128] → [50000,128] at (n, q) is the bias at q. -/
theorem bias128_host (b : Arr (F := Ideal) Cert.ReferenceIdeal.S128) (n : Fin 50000) (q : Fin 128) :
    broadcastInDim Cert.ReferenceIdeal.S50000x128 ![0, 1] Cert.ReferenceIdeal.Gen.bcast_S1x128_S50000x128_0_1
      (broadcastInDim Cert.ReferenceIdeal.S1x128 ![1] Cert.ReferenceIdeal.Gen.bcast_S128_S1x128_1 b) (ix2 n q) = b (ix1 q) := by
  refine (broadcastInDim_apply _ Cert.ReferenceIdeal.Gen.bcast_S1x128_S50000x128_0_1 _ (ix2 n q) (ix2 (0 : Fin 1) q) (fun a => ?_)).trans ?_
  · match a with
    | ⟨0, _⟩ => rfl
    | ⟨1, _⟩ => rfl
  · refine broadcastInDim_apply _ Cert.ReferenceIdeal.Gen.bcast_S128_S1x128_1 b (ix2 (0 : Fin 1) q) (ix1 q) (fun a => ?_)
    match a with
    | ⟨0, _⟩ => rfl

/-- The bias row [4] → [1,4] → [50000,4] at (n, j) is the bias at j. -/
theorem bias4_host (b : Arr (F := Ideal) Cert.ReferenceIdeal.S4) (n : Fin 50000) (j : Fin 4) :
    broadcastInDim Cert.ReferenceIdeal.S50000x4 ![0, 1] Cert.ReferenceIdeal.Gen.bcast_S1x4_S50000x4_0_1
      (broadcastInDim Cert.ReferenceIdeal.S1x4 ![1] Cert.ReferenceIdeal.Gen.bcast_S4_S1x4_1 b) (ix2 n j) = b (ix1 j) := by
  refine (broadcastInDim_apply _ Cert.ReferenceIdeal.Gen.bcast_S1x4_S50000x4_0_1 _ (ix2 n j) (ix2 (0 : Fin 1) j) (fun a => ?_)).trans ?_
  · match a with
    | ⟨0, _⟩ => rfl
    | ⟨1, _⟩ => rfl
  · refine broadcastInDim_apply _ Cert.ReferenceIdeal.Gen.bcast_S4_S1x4_1 b (ix2 (0 : Fin 1) j) (ix1 j) (fun a => ?_)
    match a with
    | ⟨0, _⟩ => rfl

/-- The zero splat at an index. -/
theorem zero128_host (n : Fin 50000) (q : Fin 128) :
    broadcastInDim Cert.ReferenceIdeal.S50000x128 ![] Cert.ReferenceIdeal.Gen.bcast_S_S50000x128
      (constant (F := Ideal) Cert.ReferenceIdeal.S_ .f32 0x00000000#32) (ix2 n q) = Ideal.ofBits .f32 0x00000000#32 :=
  broadcastInDim_apply _ Cert.ReferenceIdeal.Gen.bcast_S_S50000x128 _ (ix2 n q) ix0 (fun a => a.elim0)

theorem dense16_apply (A X : Arr (F := Ideal) Cert.ReferenceIdeal.S50000x16) (Wl Wr : Arr (F := Ideal) Cert.ReferenceIdeal.S16x128)
    (b : Arr (F := Ideal) Cert.ReferenceIdeal.S128) (n : Fin 50000) (q : Fin 128) :
    dense16 (F := Ideal) A X Wl Wr b (ix2 n q)
      = layerAt (fun k : Fin 16 => A (ix2 n k)) (fun k => X (ix2 n k)) (fun k => Wl (ix2 k q)) (fun k => Wr (ix2 k q)) (b (ix1 q)) := by
  unfold dense16 layerAt
  refine (maximumf_apply _ _ _).trans (congrArg₂ max ?_ (zero128_host n q))
  refine (addf_apply _ _ _).trans (congrArg₂ (· + ·) ?_ (bias128_host b n q))
  refine (addf_apply _ _ _).trans (congrArg₂ (· + ·) ?_ ?_)
  · exact MatmulSum.dotGeneral_apply Cert.ReferenceIdeal.dot_S50000x16_S16x128_S50000x128_1_0_0_1_n_n rfl rfl rfl rfl rfl rfl _ _ A Wl (ix2 n q)
  · exact MatmulSum.dotGeneral_apply Cert.ReferenceIdeal.dot_S50000x16_S16x128_S50000x128_1_0_0_1_n_n rfl rfl rfl rfl rfl rfl _ _ X Wr (ix2 n q)

theorem dense128_apply (A X : Arr (F := Ideal) Cert.ReferenceIdeal.S50000x128) (Wl Wr : Arr (F := Ideal) Cert.ReferenceIdeal.S128x128)
    (b : Arr (F := Ideal) Cert.ReferenceIdeal.S128) (n : Fin 50000) (q : Fin 128) :
    dense128 (F := Ideal) A X Wl Wr b (ix2 n q)
      = layerAt (fun k : Fin 128 => A (ix2 n k)) (fun k => X (ix2 n k)) (fun k => Wl (ix2 k q)) (fun k => Wr (ix2 k q)) (b (ix1 q)) := by
  unfold dense128 layerAt
  refine (maximumf_apply _ _ _).trans (congrArg₂ max ?_ (zero128_host n q))
  refine (addf_apply _ _ _).trans (congrArg₂ (· + ·) ?_ (bias128_host b n q))
  refine (addf_apply _ _ _).trans (congrArg₂ (· + ·) ?_ ?_)
  · exact MatmulSum.dotGeneral_apply Cert.ReferenceIdeal.dot_S50000x128_S128x128_S50000x128_1_0_0_1_n_n rfl rfl rfl rfl rfl rfl _ _ A Wl (ix2 n q)
  · exact MatmulSum.dotGeneral_apply Cert.ReferenceIdeal.dot_S50000x128_S128x128_S50000x128_1_0_0_1_n_n rfl rfl rfl rfl rfl rfl _ _ X Wr (ix2 n q)

theorem head_apply (H : Arr (F := Ideal) Cert.ReferenceIdeal.S50000x128) (Wh : Arr (F := Ideal) Cert.ReferenceIdeal.S128x4)
    (bh : Arr (F := Ideal) Cert.ReferenceIdeal.S4) (n : Fin 50000) (j : Fin 4) :
    head (F := Ideal) H Wh bh (ix2 n j) = (∑ k : Fin 128, H (ix2 n k) * Wh (ix2 k j)) + bh (ix1 j) := by
  unfold head
  refine (addf_apply _ _ _).trans (congrArg₂ (· + ·) ?_ (bias4_host bh n j))
  exact MatmulSum.dotGeneral_apply Cert.ReferenceIdeal.dot_S50000x128_S128x4_S50000x4_1_0_0_1_n_n rfl rfl rfl rfl rfl rfl _ _ H Wh (ix2 n j)

/-! ## The kernel bodies' arithmetic, at an index of the block -/

/-- A matrix product into the zero accumulator whose operands are, entry by entry, the extended reals `l` and `r`
    (a cast to the same shape and a change of float format do not change an entry): the sum of products. -/
theorem mm_apply {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (l' : FVec Ideal ⟨2, ![M, K]⟩ φ₁) (r' : FVec Ideal ⟨2, ![K, N]⟩ φ₂)
    (l : (⟨2, ![M, K]⟩ : Shape).Idx → EReal) (r : (⟨2, ![K, N]⟩ : Shape).Idx → EReal)
    (hl : ∀ i, l' i = l i) (hr : ∀ i, r' i = r i) (p : Fin M) (q : Fin N) :
    matmul d none l' r' (constant ⟨2, ![M, N]⟩ .f32 0x00000000#32) (ix2 p q) = ∑ k : Fin K, l (ix2 p k) * r (ix2 k q) := by
  refine (MatmulSum.matmul_zero_apply d hlc hrc hln hrn hlb hrb none l' r' (ix2 p q)).trans ?_
  exact Finset.sum_congr rfl fun k _ => congrArg₂ (· * ·) (hl (ix2 p k)) (hr (ix2 k q))

/-- The bias vector [b] viewed [1, b] and repeated down `a` rows, at (p, c): the bias at c. -/
theorem bias_block {a b : Nat} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

open Cert.KernelIdeal Cert.KernelIdeal.Gen in
theorem pay0_apply (x0 x1 : Vec Ideal S5000x16 .f32) (x2 x3 : Vec Ideal S16x128 .f32) (x4 : Vec Ideal S128 .f32)
    (p : Fin 5000) (q : Fin 128) :
    k0_pay1 (F := Ideal) x0 x1 x2 x3 x4 (ix2 p q)
      = layerAt (fun k : Fin 16 => x0 (ix2 p k)) (fun k => x1 (ix2 p k)) (fun k => x2 (ix2 k q)) (fun k => x3 (ix2 k q)) (x4 (ix1 q)) := by
  unfold k0_pay1 layerAt
  refine (maximumf_apply _ _ _).trans (congrArg₂ max ?_ rfl)
  refine (addf_apply _ _ _).trans (congrArg₂ (· + ·) ?_ (bias_block x4 _ _ p q))
  refine (addf_apply _ _ _).trans (congrArg₂ (· + ·) ?_ ?_)
  · exact mm_apply dot_S5000x16_S16x128_S5000x128_1_0_0_1_n_n rfl rfl rfl rfl rfl rfl _ _ x0 x2
      (fun i => congrFun (shapeCast_self x0 _) i) (fun i => congrFun (shapeCast_self x2 _) i) p q
  · exact mm_apply dot_S5000x16_S16x128_S5000x128_1_0_0_1_n_n rfl rfl rfl rfl rfl rfl _ _ x1 x3
      (fun i => rfl) (fun i => congrFun (shapeCast_self x3 _) i) p q

open Cert.KernelIdeal Cert.KernelIdeal.Gen in
theorem pay1_apply (x0 x1 : Vec Ideal S5000x128 .f32) (x2 x3 : Vec Ideal S128x128 .f32) (x4 : Vec Ideal S128 .f32)
    (p : Fin 5000) (q : Fin 128) :
    k1_pay1 (F := Ideal) x0 x1 x2 x3 x4 (ix2 p q)
      = layerAt (fun k : Fin 128 => x0 (ix2 p k)) (fun k => x1 (ix2 p k)) (fun k => x2 (ix2 k q)) (fun k => x3 (ix2 k q)) (x4 (ix1 q)) := by
  unfold k1_pay1 layerAt
  refine (maximumf_apply _ _ _).trans (congrArg₂ max ?_ rfl)
  refine (addf_apply _ _ _).trans (congrArg₂ (· + ·) ?_ (bias_block x4 _ _ p q))
  refine (addf_apply _ _ _).trans (congrArg₂ (· + ·) ?_ ?_)
  · exact mm_apply dot_S5000x128_S128x128_S5000x128_1_0_0_1_n_n rfl rfl rfl rfl rfl rfl _ _ x0 x2
      (fun i => congrFun (shapeCast_self x0 _) i) (fun i => congrFun (shapeCast_self x2 _) i) p q
  · exact mm_apply dot_S5000x128_S128x128_S5000x128_1_0_0_1_n_n rfl rfl rfl rfl rfl rfl _ _ x1 x3
      (fun i => congrFun (shapeCast_self x1 _) i) (fun i => congrFun (shapeCast_self x3 _) i) p q

open Cert.KernelIdeal Cert.KernelIdeal.Gen in
theorem pay2_apply (x0 x1 : Vec Ideal S5000x128 .f32) (x2 x3 : Vec Ideal S128x128 .f32) (x4 : Vec Ideal S128 .f32)
    (x5 : Vec Ideal S128x4 .f32) (x6 : Vec Ideal S4 .f32) (p : Fin 5000) (j : Fin 4) :
    k2_pay1 (F := Ideal) x0 x1 x2 x3 x4 x5 x6 (ix2 p j)
      = (∑ k : Fin 128, layerAt (fun f : Fin 128 => x0 (ix2 p f)) (fun f => x1 (ix2 p f)) (fun f => x2 (ix2 f k)) (fun f => x3 (ix2 f k)) (x4 (ix1 k))
            * x5 (ix2 k j)) + x6 (ix1 j) := by
  -- the last body is the middle body's payload followed by the head: a product with `x5` into zero, plus the bias row
  have split : k2_pay1 (F := Ideal) x0 x1 x2 x3 x4 x5 x6
      = addf (matmul dot_S5000x128_S128x4_S5000x4_1_0_0_1_n_n none
                (truncf .bf16 (k1_pay1 (F := Ideal) x0 x1 x2 x3 x4) bitsLt_bf16_f32)
                (truncf .bf16 (shapeCast S128x4 x5 shapeCasts_S128x4_S128x4) bitsLt_bf16_f32)
                (constant S5000x4 .f32 0x00000000#32))
             (broadcastTo S5000x4 (shapeCast S1x4 x6 shapeCasts_S4_S1x4) broadcasts_S1x4_S5000x4) := rfl
  rw [split]
  refine (addf_apply _ _ _).trans (congrArg₂ (· + ·) ?_ (bias_block x6 _ _ p j))
  refine (mm_apply dot_S5000x128_S128x4_S5000x4_1_0_0_1_n_n rfl rfl rfl rfl rfl rfl
      (truncf .bf16 (k1_pay1 (F := Ideal) x0 x1 x2 x3 x4) bitsLt_bf16_f32)
      (truncf .bf16 (shapeCast S128x4 x5 shapeCasts_S128x4_S128x4) bitsLt_bf16_f32)
      (k1_pay1 (F := Ideal) x0 x1 x2 x3 x4) x5 (fun i => rfl) (fun i => congrFun (shapeCast_self x5 _) i) p j).trans ?_
  exact Finset.sum_congr rfl fun k _ => congrArg (· * x5 (ix2 k j)) (pay1_apply x0 x1 x2 x3 x4 p k)

end Cert.Sage

end
-- ==== Proof.Region0.lean ====
/-
  Region 0: the output array after the region, as one function of the arrays the region finds.

  The region runs the first layer's body on ten blocks of 5000 rows: at point `t` it stages rows `5000·t … 5000·t + 4999` of
  the aggregated and the own features, the two weight matrices and the bias whole, and writes back the block's 5000 rows
  of `relu(A · Wl + X · Wr + b)`. A row of a matrix product depends only on that row of the left factor, so the block of
  the product is the product of the block: what point `t` writes back is block `t` of the layer computed on all 50000
  rows. The ten blocks tile the array, so afterwards the array IS that layer.
-/
import proofs.«157790_j2173253452589_1_alg».proof.Proof.Gen.KernelIdeal.Frame
import proofs.«157790_j2173253452589_1_alg».proof.Proof.Payload
import Idealize.ShloMosaic.Lib.Pipeline.Value

set_option maxRecDepth 16384

noncomputable section

namespace Cert.KernelIdeal.Net

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The output array of region 0 as one function of the arrays the region finds. -/
abbrev G0 (c : Dev nD) : Cert.Sage.Arr (F := Ideal) Cert.ReferenceIdeal.S50000x128 :=
  Cert.Sage.dense16 (F := Ideal) (V c main_v23) (V c main_arg0) (V c main_v24) (V c main_v25) (V c main_arg4)

/-- The printed index maps over the ten grid points: the two row-blocked inputs move with the output's row block, the
    weights and the bias stay at block zero, and the output's row block is the point's number. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is block `t` of the layer: row `p` of the block is row `5000·t + p` of the array, the two
    row-blocked inputs are read at that row, the weights and the bias whole. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  unfold out0_5
  rw [View.canon_unit_zero hz2]
  simp only [View.ld_unit_zero (S := S5000x16) hz2, View.ld_unit_zero (S := S16x128) hz2, View.ld_unit_zero (S := S128) hz1]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
      = G0 V c (((cfg0.win 5).blk t).view.emb (ix2 p q))
  refine (Cert.Sage.pay0_apply _ _ _ _ _ p q).trans ?_
  obtain ⟨e00, e01, e10, e11, e20, e21, e30, e31, e40, e50, e51⟩ := idx_facts0 t
  have ht : t.val < 10 := lt_of_lt_of_eq t.isLt N_0
  have hp : p.val < 5000 := p.isLt
  have hn : t.val * 5000 + p.val < 50000 := by omega
  have hemb : ((cfg0.win 5).blk t).view.emb (ix2 p q) = ix2 (⟨t.val * 5000 + p.val, hn⟩ : Fin 50000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  rw [hemb]
  refine Eq.trans ?_ (Cert.Sage.dense16_apply _ _ _ _ _ _ q).symm
  have f0 : (fun k : Fin 16 => iblk0 V c 0 t (ix2 p k)) = fun k => V c main_v23 (ix2 (⟨t.val * 5000 + p.val, hn⟩ : Fin 50000) k) :=
    funext fun k => by
      show V c main_v23 (((cfg0.win 0).blk t).view.emb (ix2 p k)) = _
      refine congrArg _ (funext fun a => Fin.ext ?_)
      match a with
      | ⟨0, _⟩ => show win0_0.index t (0 : Fin 2) * 5000 + 1 * p.val = t.val * 5000 + p.val; omega
      | ⟨1, _⟩ => show win0_0.index t (1 : Fin 2) * 16 + 1 * k.val = k.val; omega
  have f1 : (fun k : Fin 16 => iblk0 V c 1 t (ix2 p k)) = fun k => V c main_arg0 (ix2 (⟨t.val * 5000 + p.val, hn⟩ : Fin 50000) k) :=
    funext fun k => by
      show V c main_arg0 (((cfg0.win 1).blk t).view.emb (ix2 p k)) = _
      refine congrArg _ (funext fun a => Fin.ext ?_)
      match a with
      | ⟨0, _⟩ => show win0_1.index t (0 : Fin 2) * 5000 + 1 * p.val = t.val * 5000 + p.val; omega
      | ⟨1, _⟩ => show win0_1.index t (1 : Fin 2) * 16 + 1 * k.val = k.val; omega
  have f2 : (fun k : Fin 16 => iblk0 V c 2 t (ix2 k q)) = fun k => V c main_v24 (ix2 k q) :=
    funext fun k => by
      show V c main_v24 (((cfg0.win 2).blk t).view.emb (ix2 k q)) = _
      refine congrArg _ (funext fun a => Fin.ext ?_)
      match a with
      | ⟨0, _⟩ => show win0_2.index t (0 : Fin 2) * 16 + 1 * k.val = k.val; omega
      | ⟨1, _⟩ => show win0_2.index t (1 : Fin 2) * 128 + 1 * q.val = q.val; omega
  have f3 : (fun k : Fin 16 => iblk0 V c 3 t (ix2 k q)) = fun k => V c main_v25 (ix2 k q) :=
    funext fun k => by
      show V c main_v25 (((cfg0.win 3).blk t).view.emb (ix2 k q)) = _
      refine congrArg _ (funext fun a => Fin.ext ?_)
      match a with
      | ⟨0, _⟩ => show win0_3.index t (0 : Fin 2) * 16 + 1 * k.val = k.val; omega
      | ⟨1, _⟩ => show win0_3.index t (1 : Fin 2) * 128 + 1 * q.val = q.val; omega
  have f4 : iblk0 V c 4 t (ix1 q) = V c main_arg4 (ix1 q) := by
    show V c main_arg4 (((cfg0.win 4).blk t).view.emb (ix1 q)) = _
    refine congrArg _ (funext fun a => Fin.ext ?_)
    match a with
    | ⟨0, _⟩ => show win0_4.index t (0 : Fin 1) * 128 + 1 * q.val = q.val; omega
  rw [f0, f1, f2, f3, f4]

/-- An index of the array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Row `r` of the array lies in the block of point `r / 5000`: the ten blocks tile the array. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, -, -, -, -, -, e50, e51⟩ := idx_facts0 t
  have e50' : win0_5.index t (0 : Fin 2) = (i 0).val / 5000 := e50
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After region 0 its output array is the first layer of the arrays the region finds. -/
theorem final0 (c : Dev nD) :
    (dat0 (F := Ideal) V c).arrAt 5 cfg0.N
      = Cert.Sage.dense16 (F := Ideal) (V c main_v23) (V c main_arg0) (V c main_v24) (V c main_v25) (V c main_arg4) :=
  (dat0 (F := Ideal) V c).arrAt_eq_of_cover 5 (G0 V c) (fun t _ => flushed0_eq V c t) cover0

end Cert.KernelIdeal.Net

end
-- ==== Proof.Region1.lean ====
/-
  Region 1: the output array after the region, as one function of the arrays the region finds.

  The same layer body as region 0 with 128 input features: at point `t` rows `5000·t … 5000·t + 4999` of the aggregated and
  the own features, the weights and the bias whole; the block of the layer is the layer of the block, and the ten blocks
  tile the array.
-/
import proofs.«157790_j2173253452589_1_alg».proof.Proof.Gen.KernelIdeal.Frame
import proofs.«157790_j2173253452589_1_alg».proof.Proof.Payload
import Idealize.ShloMosaic.Lib.Pipeline.Value

set_option maxRecDepth 16384

noncomputable section

namespace Cert.KernelIdeal.Net

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2_r1 : (![0, 0] : Fin 2 → Nat) = fun _ => 0 := funext fun a => by fin_cases a <;> rfl
theorem hz1_r1 : (![0] : Fin 1 → Nat) = fun _ => 0 := funext fun a => by fin_cases a; rfl

/-- The output array of region 1 as one function of the arrays the region finds. -/
abbrev G1 (c : Dev nD) : Cert.Sage.Arr (F := Ideal) Cert.ReferenceIdeal.S50000x128 :=
  Cert.Sage.dense128 (F := Ideal) (V c main_v38) (V c main_v26) (V c main_v39) (V c main_v40) (V c main_arg7)

/-- The printed index maps over the ten grid points: the two row-blocked inputs move with the output's row block, the
    weights and the bias stay at block zero, and the output's row block is the point's number. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- What point `t` writes back is block `t` of the layer: row `p` of the block is row `5000·t + p` of the array, the two
    row-blocked inputs are read at that row, the weights and the bias whole. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz2_r1]
  simp only [View.ld_unit_zero (S := S5000x128) hz2_r1, View.ld_unit_zero (S := S128x128) hz2_r1, View.ld_unit_zero (S := S128) hz1_r1]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
      = G1 V c (((cfg1.win 5).blk t).view.emb (ix2 p q))
  refine (Cert.Sage.pay1_apply _ _ _ _ _ p q).trans ?_
  obtain ⟨e00, e01, e10, e11, e20, e21, e30, e31, e40, e50, e51⟩ := idx_facts1 t
  have ht : t.val < 10 := lt_of_lt_of_eq t.isLt N_1
  have hp : p.val < 5000 := p.isLt
  have hn : t.val * 5000 + p.val < 50000 := by omega
  have hemb : ((cfg1.win 5).blk t).view.emb (ix2 p q) = ix2 (⟨t.val * 5000 + p.val, hn⟩ : Fin 50000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  rw [hemb]
  refine Eq.trans ?_ (Cert.Sage.dense128_apply _ _ _ _ _ _ q).symm
  have f0 : (fun k : Fin 128 => iblk1 V c 0 t (ix2 p k)) = fun k => V c main_v38 (ix2 (⟨t.val * 5000 + p.val, hn⟩ : Fin 50000) k) :=
    funext fun k => by
      show V c main_v38 (((cfg1.win 0).blk t).view.emb (ix2 p k)) = _
      refine congrArg _ (funext fun a => Fin.ext ?_)
      match a with
      | ⟨0, _⟩ => show win1_0.index t (0 : Fin 2) * 5000 + 1 * p.val = t.val * 5000 + p.val; omega
      | ⟨1, _⟩ => show win1_0.index t (1 : Fin 2) * 128 + 1 * k.val = k.val; omega
  have f1 : (fun k : Fin 128 => iblk1 V c 1 t (ix2 p k)) = fun k => V c main_v26 (ix2 (⟨t.val * 5000 + p.val, hn⟩ : Fin 50000) k) :=
    funext fun k => by
      show V c main_v26 (((cfg1.win 1).blk t).view.emb (ix2 p k)) = _
      refine congrArg _ (funext fun a => Fin.ext ?_)
      match a with
      | ⟨0, _⟩ => show win1_1.index t (0 : Fin 2) * 5000 + 1 * p.val = t.val * 5000 + p.val; omega
      | ⟨1, _⟩ => show win1_1.index t (1 : Fin 2) * 128 + 1 * k.val = k.val; omega
  have f2 : (fun k : Fin 128 => iblk1 V c 2 t (ix2 k q)) = fun k => V c main_v39 (ix2 k q) :=
    funext fun k => by
      show V c main_v39 (((cfg1.win 2).blk t).view.emb (ix2 k q)) = _
      refine congrArg _ (funext fun a => Fin.ext ?_)
      match a with
      | ⟨0, _⟩ => show win1_2.index t (0 : Fin 2) * 128 + 1 * k.val = k.val; omega
      | ⟨1, _⟩ => show win1_2.index t (1 : Fin 2) * 128 + 1 * q.val = q.val; omega
  have f3 : (fun k : Fin 128 => iblk1 V c 3 t (ix2 k q)) = fun k => V c main_v40 (ix2 k q) :=
    funext fun k => by
      show V c main_v40 (((cfg1.win 3).blk t).view.emb (ix2 k q)) = _
      refine congrArg _ (funext fun a => Fin.ext ?_)
      match a with
      | ⟨0, _⟩ => show win1_3.index t (0 : Fin 2) * 128 + 1 * k.val = k.val; omega
      | ⟨1, _⟩ => show win1_3.index t (1 : Fin 2) * 128 + 1 * q.val = q.val; omega
  have f4 : iblk1 V c 4 t (ix1 q) = V c main_arg7 (ix1 q) := by
    show V c main_arg7 (((cfg1.win 4).blk t).view.emb (ix1 q)) = _
    refine congrArg _ (funext fun a => Fin.ext ?_)
    match a with
    | ⟨0, _⟩ => show win1_4.index t (0 : Fin 1) * 128 + 1 * q.val = q.val; omega
  rw [f0, f1, f2, f3, f4]

/-- An index of the array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- Row `r` of the array lies in the block of point `r / 5000`: the ten blocks tile the array. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨-, -, -, -, -, -, -, -, -, e50, e51⟩ := idx_facts1 t
  have e50' : win1_5.index t (0 : Fin 2) = (i 0).val / 5000 := e50
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After region 1 its output array is the second layer of the arrays the region finds. -/
theorem final1 (c : Dev nD) :
    (dat1 (F := Ideal) V c).arrAt 5 cfg1.N
      = Cert.Sage.dense128 (F := Ideal) (V c main_v38) (V c main_v26) (V c main_v39) (V c main_v40) (V c main_arg7) :=
  (dat1 (F := Ideal) V c).arrAt_eq_of_cover 5 (G1 V c) (fun t _ => flushed1_eq V c t) cover1

end Cert.KernelIdeal.Net

end
-- ==== Proof.Region2.lean ====
/-
  Region 2: the output array after the region, as one function of the arrays the region finds.

  The last region fuses the third layer with the linear head: at point `t` it computes the 5000 hidden rows
  `relu(A · Wl + X · Wr + b)` of its block and at once their product with the head's weights plus the head's bias, and
  writes back 5000 rows of 4 outputs. Entry `(5000·t + p, j)` is `Σ_k hidden(5000·t + p, k) · Wh(k, j) + bh(j)`, and the
  hidden entry is the layer's entry at that row: the block of head ∘ layer is head ∘ layer of the block. The ten blocks
  tile the array.
-/
import proofs.«157790_j2173253452589_1_alg».proof.Proof.Gen.KernelIdeal.Frame
import proofs.«157790_j2173253452589_1_alg».proof.Proof.Payload
import Idealize.ShloMosaic.Lib.Pipeline.Value

set_option maxRecDepth 16384

noncomputable section

namespace Cert.KernelIdeal.Net

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2_r2 : (![0, 0] : Fin 2 → Nat) = fun _ => 0 := funext fun a => by fin_cases a <;> rfl
theorem hz1_r2 : (![0] : Fin 1 → Nat) = fun _ => 0 := funext fun a => by fin_cases a; rfl

/-- The output array of region 2 as one function of the arrays the region finds. -/
abbrev G2 (c : Dev nD) : Cert.Sage.Arr (F := Ideal) Cert.ReferenceIdeal.S50000x4 :=
  Cert.Sage.head (F := Ideal) (Cert.Sage.dense128 (F := Ideal) (V c main_v53) (V c main_v41) (V c main_v54) (V c main_v55) (V c main_arg10))
    (V c main_v56) (V c main_arg12)

/-- The printed index maps over the ten grid points: the two row-blocked inputs move with the output's row block, the
    weights and the biases stay at block zero, and the output's row block is the point's number. -/
theorem idx_facts2 : ∀ t : Fin cfg2.N,
    win2_0.index t (0 : Fin 2) = win2_7.index t (0 : Fin 2) ∧ win2_0.index t (1 : Fin 2) = 0
    ∧ win2_1.index t (0 : Fin 2) = win2_7.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- What point `t` writes back is block `t` of head ∘ layer: row `p` of the block is row `5000·t + p` of the array; the hidden
    row it is computed from is the third layer's row `5000·t + p`, entry by entry. -/
theorem flushed2_eq (c : Dev nD) (t : Fin cfg2.N) :
    (dat2 (F := Ideal) V c).flushed 7 t = ((cfg2.win 7).blk t).view.read (Elt Ideal) (G2 V c) := by
  show (cfg2.win 7).cut (grid2.coords t) ((dat2 (F := Ideal) V c).after 7 t) = _
  rw [after2_7]
  unfold out2_7
  rw [View.canon_unit_zero hz2_r2]
  simp only [View.ld_unit_zero (S := S5000x128) hz2_r2, View.ld_unit_zero (S := S128x128) hz2_r2, View.ld_unit_zero (S := S128) hz1_r2,
    View.ld_unit_zero (S := S128x4) hz2_r2, View.ld_unit_zero (S := S4) hz1_r2]
  funext j
  obtain ⟨p, q, rfl⟩ : ∃ (p : Fin 5000) (q : Fin 4), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (iblk2 V c 6 t) (ix2 p q)
      = G2 V c (((cfg2.win 7).blk t).view.emb (ix2 p q))
  refine (Cert.Sage.pay2_apply _ _ _ _ _ _ _ p q).trans ?_
  obtain ⟨e00, e01, e10, e11, e20, e21, e30, e31, e40, e50, e51, e60, e70, e71⟩ := idx_facts2 t
  have ht : t.val < 10 := lt_of_lt_of_eq t.isLt N_2
  have hp : p.val < 5000 := p.isLt
  have hn : t.val * 5000 + p.val < 50000 := by omega
  have hemb : ((cfg2.win 7).blk t).view.emb (ix2 p q) = ix2 (⟨t.val * 5000 + p.val, hn⟩ : Fin 50000) q := by
    funext a; apply Fin.ext
    match a with
    | ⟨0, _⟩ => show win2_7.index t (0 : Fin 2) * 5000 + 1 * p.val = t.val * 5000 + p.val; omega
    | ⟨1, _⟩ => show win2_7.index t (1 : Fin 2) * 4 + 1 * q.val = q.val; omega
  rw [hemb]
  refine Eq.trans ?_ (Cert.Sage.head_apply _ _ _ _ q).symm
  have f0 : (fun k : Fin 128 => iblk2 V c 0 t (ix2 p k)) = fun k => V c main_v53 (ix2 (⟨t.val * 5000 + p.val, hn⟩ : Fin 50000) k) :=
    funext fun k => by
      show V c main_v53 (((cfg2.win 0).blk t).view.emb (ix2 p k)) = _
      refine congrArg _ (funext fun a => Fin.ext ?_)
      match a with
      | ⟨0, _⟩ => show win2_0.index t (0 : Fin 2) * 5000 + 1 * p.val = t.val * 5000 + p.val; omega
      | ⟨1, _⟩ => show win2_0.index t (1 : Fin 2) * 128 + 1 * k.val = k.val; omega
  have f1 : (fun k : Fin 128 => iblk2 V c 1 t (ix2 p k)) = fun k => V c main_v41 (ix2 (⟨t.val * 5000 + p.val, hn⟩ : Fin 50000) k) :=
    funext fun k => by
      show V c main_v41 (((cfg2.win 1).blk t).view.emb (ix2 p k)) = _
      refine congrArg _ (funext fun a => Fin.ext ?_)
      match a with
      | ⟨0, _⟩ => show win2_1.index t (0 : Fin 2) * 5000 + 1 * p.val = t.val * 5000 + p.val; omega
      | ⟨1, _⟩ => show win2_1.index t (1 : Fin 2) * 128 + 1 * k.val = k.val; omega
  have f2 : ∀ k' : Fin 128, (fun k : Fin 128 => iblk2 V c 2 t (ix2 k k')) = fun k => V c main_v54 (ix2 k k') :=
    fun k' => funext fun k => by
      show V c main_v54 (((cfg2.win 2).blk t).view.emb (ix2 k k')) = _
      refine congrArg _ (funext fun a => Fin.ext ?_)
      match a with
      | ⟨0, _⟩ => show win2_2.index t (0 : Fin 2) * 128 + 1 * k.val = k.val; omega
      | ⟨1, _⟩ => show win2_2.index t (1 : Fin 2) * 128 + 1 * k'.val = k'.val; omega
  have f3 : ∀ k' : Fin 128, (fun k : Fin 128 => iblk2 V c 3 t (ix2 k k')) = fun k => V c main_v55 (ix2 k k') :=
    fun k' => funext fun k => by
      show V c main_v55 (((cfg2.win 3).blk t).view.emb (ix2 k k')) = _
      refine congrArg _ (funext fun a => Fin.ext ?_)
      match a with
      | ⟨0, _⟩ => show win2_3.index t (0 : Fin 2) * 128 + 1 * k.val = k.val; omega
      | ⟨1, _⟩ => show win2_3.index t (1 : Fin 2) * 128 + 1 * k'.val = k'.val; omega
  have f4 : ∀ k' : Fin 128, iblk2 V c 4 t (ix1 k') = V c main_arg10 (ix1 k') := fun k' => by
    show V c main_arg10 (((cfg2.win 4).blk t).view.emb (ix1 k')) = _
    refine congrArg _ (funext fun a => Fin.ext ?_)
    match a with
    | ⟨0, _⟩ => show win2_4.index t (0 : Fin 1) * 128 + 1 * k'.val = k'.val; omega
  have f5 : ∀ k' : Fin 128, iblk2 V c 5 t (ix2 k' q) = V c main_v56 (ix2 k' q) := fun k' => by
    show V c main_v56 (((cfg2.win 5).blk t).view.emb (ix2 k' q)) = _
    refine congrArg _ (funext fun a => Fin.ext ?_)
    match a with
    | ⟨0, _⟩ => show win2_5.index t (0 : Fin 2) * 128 + 1 * k'.val = k'.val; omega
    | ⟨1, _⟩ => show win2_5.index t (1 : Fin 2) * 4 + 1 * q.val = q.val; omega
  have f6 : iblk2 V c 6 t (ix1 q) = V c main_arg12 (ix1 q) := by
    show V c main_arg12 (((cfg2.win 6).blk t).view.emb (ix1 q)) = _
    refine congrArg _ (funext fun a => Fin.ext ?_)
    match a with
    | ⟨0, _⟩ => show win2_6.index t (0 : Fin 1) * 4 + 1 * q.val = q.val; omega
  rw [f0, f1, f6]
  refine congrArg (· + V c main_arg12 (ix1 q)) (Finset.sum_congr rfl fun k' _ => ?_)
  rw [f2 k', f3 k', f4 k', f5 k', Cert.Sage.dense128_apply]

/-- An index of the array is in point `t`'s block iff each coordinate is in the block's range on its axis. -/
theorem mem_blk2 (t : Fin cfg2.N) (i : S50000x4.Idx) :
    i ∈ ((cfg2.win 7).blk t).view.set ↔ ∀ a : Fin 2, win2_7.index t a * S5000x4.size a ≤ (i a).val ∧ (i a).val < win2_7.index t a * S5000x4.size a + S5000x4.size a := by
  show i ∈ ((View.whole main_v57).slice (win2_7.rect t)).set ↔ _
  rw [View.set_slice_whole, Rect.mem_set_unit]
  exact Iff.rfl

/-- Row `r` of the array lies in the block of point `r / 5000`: the ten blocks tile the array. -/
theorem cover2 (i : S50000x4.Idx) : ∃ t : Fin cfg2.N, (cfg2.win 7).flush t = true ∧ i ∈ ((cfg2.win 7).blk t).view.set := by
  have hi0 : (i 0).val < 50000 := (i 0).isLt
  have hi1 : (i 1).val < 4 := (i 1).isLt
  let t : Fin cfg2.N := ⟨(i 0).val / 5000, by rw [show cfg2.N = 10 from N_2]; omega⟩
  obtain ⟨-, -, -, -, -, -, -, -, -, -, -, -, e70, e71⟩ := idx_facts2 t
  have e70' : win2_7.index t (0 : Fin 2) = (i 0).val / 5000 := e70
  refine ⟨t, flush2_7 t, ?_⟩
  rw [mem_blk2]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 4 ≤ (i 1).val ∧ (i 1).val < win2_7.index t (1 : Fin 2) * 4 + 4; omega

/-- After region 2 its output array is the head of the third layer of the arrays the region finds. -/
theorem final2 (c : Dev nD) :
    (dat2 (F := Ideal) V c).arrAt 7 cfg2.N
      = Cert.Sage.head (F := Ideal) (Cert.Sage.dense128 (F := Ideal) (V c main_v53) (V c main_v41) (V c main_v54) (V c main_v55) (V c main_arg10))
          (V c main_v56) (V c main_arg12) :=
  (dat2 (F := Ideal) V c).arrAt_eq_of_cover 7 (G2 V c) (fun t _ => flushed2_eq V c t) cover2

end Cert.KernelIdeal.Net

end
-- ==== Proof.Chain1.lean ====
/-
  The layers' values as functions of the argument arrays, and what the first stretch of host operations leaves.

  The edge list's two rows, the reciprocal of the clamped in-degree, the mean of the input features over incoming edges
  (as a product with that reciprocal) and the two transposed weight matrices of the first layer are each computed once,
  before the first region; an argument array is written by no host operation. Each is read here as the matching piece of
  the network's definition: the host operations are the same operations over records with the same fields.
-/
import proofs.«157790_j2173253452589_1_alg».proof.Proof.Gen.KernelIdeal.Frame
import proofs.«157790_j2173253452589_1_alg».proof.Proof.Spec
import Idealize.ShloMosaic.Lib.StableHlo.Run

set_option maxRecDepth 16384

noncomputable section

namespace Cert.KernelIdeal.Net

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- A buffer that no operation of a stretch writes keeps its contents: the stretch's list is walked once, and each
    operation's result buffer is compared with the buffer read. -/
macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The values -/

/-- The edges' sources and destinations. -/
def src (c : Dev nD) := Cert.Sage.srcRow (F := Ideal) (m ((c.tc : Thread nD τ).loc main_arg1))
def dst (c : Dev nD) := Cert.Sage.dstRow (F := Ideal) (m ((c.tc : Thread nD τ).loc main_arg1))

/-- The first hidden layer: 16 features in, the mean taken as a product with the reciprocal degree. -/
def H1 (c : Dev nD) :=
  Cert.Sage.dense16 (F := Ideal) (Cert.Sage.meanMul16 (F := Ideal) (m ((c.tc : Thread nD τ).loc main_arg0)) (src m c) (dst m c)) (m ((c.tc : Thread nD τ).loc main_arg0))
    (Cert.Sage.tr16 (F := Ideal) (m ((c.tc : Thread nD τ).loc main_arg2))) (Cert.Sage.tr16 (F := Ideal) (m ((c.tc : Thread nD τ).loc main_arg3))) (m ((c.tc : Thread nD τ).loc main_arg4))
/-- The second hidden layer. -/
def H2 (c : Dev nD) :=
  Cert.Sage.dense128 (F := Ideal) (Cert.Sage.meanMul128 (F := Ideal) (H1 m c) (src m c) (dst m c)) (H1 m c)
    (Cert.Sage.tr128 (F := Ideal) (m ((c.tc : Thread nD τ).loc main_arg5))) (Cert.Sage.tr128 (F := Ideal) (m ((c.tc : Thread nD τ).loc main_arg6))) (m ((c.tc : Thread nD τ).loc main_arg7))
/-- The third hidden layer. -/
def H3 (c : Dev nD) :=
  Cert.Sage.dense128 (F := Ideal) (Cert.Sage.meanMul128 (F := Ideal) (H2 m c) (src m c) (dst m c)) (H2 m c)
    (Cert.Sage.tr128 (F := Ideal) (m ((c.tc : Thread nD τ).loc main_arg8))) (Cert.Sage.tr128 (F := Ideal) (m ((c.tc : Thread nD τ).loc main_arg9))) (m ((c.tc : Thread nD τ).loc main_arg10))

/-! ## After the first stretch: the buffers it computes -/

/-- Row 0 of the edge list, as a vector. -/
theorem W1_v1 (c : Dev nD) :
    W1 (F := Ideal) m ρ c (Proc.devRef .tc main_v1) = src m c := by
  show StableHlo.after hostOps0 _ (Proc.devRef .tc main_v1) = _
  after_results_simp
  rfl

/-- Row 1 of the edge list, as a vector. -/
theorem W1_v3 (c : Dev nD) :
    W1 (F := Ideal) m ρ c (Proc.devRef .tc main_v3) = dst m c := by
  show StableHlo.after hostOps0 _ (Proc.devRef .tc main_v3) = _
  after_results_simp
  rfl

/-- The reciprocal of the in-degree clamped at one. -/
theorem W1_v11 (c : Dev nD) :
    W1 (F := Ideal) m ρ c (Proc.devRef .tc main_v11) = Cert.Sage.degRecip (F := Ideal) (dst m c) := by
  show StableHlo.after hostOps0 _ (Proc.devRef .tc main_v11) = _
  after_results_simp
  rfl

/-- The mean of the input features over incoming edges. -/
theorem W1_v23 (c : Dev nD) :
    W1 (F := Ideal) m ρ c (Proc.devRef .tc main_v23) = Cert.Sage.meanMul16 (F := Ideal) (m ((c.tc : Thread nD τ).loc main_arg0)) (src m c) (dst m c) := by
  show StableHlo.after hostOps0 _ (Proc.devRef .tc main_v23) = _
  after_results_simp
  rfl

/-- The first layer's two weight matrices, transposed. -/
theorem W1_v24 (c : Dev nD) :
    W1 (F := Ideal) m ρ c (Proc.devRef .tc main_v24) = Cert.Sage.tr16 (F := Ideal) (m ((c.tc : Thread nD τ).loc main_arg2)) := by
  show StableHlo.after hostOps0 _ (Proc.devRef .tc main_v24) = _
  after_results_simp
  rfl

theorem W1_v25 (c : Dev nD) :
    W1 (F := Ideal) m ρ c (Proc.devRef .tc main_v25) = Cert.Sage.tr16 (F := Ideal) (m ((c.tc : Thread nD τ).loc main_arg3)) := by
  show StableHlo.after hostOps0 _ (Proc.devRef .tc main_v25) = _
  after_results_simp
  rfl

/-! ## After the first stretch: the arguments it leaves -/

theorem W1_arg0 (c : Dev nD) :
    W1 (F := Ideal) m ρ c (Proc.devRef .tc main_arg0) = m ((c.tc : Thread nD τ).loc main_arg0) := by
  show StableHlo.after hostOps0 (W0 m ρ c) (Proc.devRef .tc main_arg0) = W0 m ρ c (Proc.devRef .tc main_arg0)
  host_keeps hostOps0

theorem W1_arg4 (c : Dev nD) :
    W1 (F := Ideal) m ρ c (Proc.devRef .tc main_arg4) = m ((c.tc : Thread nD τ).loc main_arg4) := by
  show StableHlo.after hostOps0 (W0 m ρ c) (Proc.devRef .tc main_arg4) = W0 m ρ c (Proc.devRef .tc main_arg4)
  host_keeps hostOps0

theorem W1_arg5 (c : Dev nD) :
    W1 (F := Ideal) m ρ c (Proc.devRef .tc main_arg5) = m ((c.tc : Thread nD τ).loc main_arg5) := by
  show StableHlo.after hostOps0 (W0 m ρ c) (Proc.devRef .tc main_arg5) = W0 m ρ c (Proc.devRef .tc main_arg5)
  host_keeps hostOps0

theorem W1_arg6 (c : Dev nD) :
    W1 (F := Ideal) m ρ c (Proc.devRef .tc main_arg6) = m ((c.tc : Thread nD τ).loc main_arg6) := by
  show StableHlo.after hostOps0 (W0 m ρ c) (Proc.devRef .tc main_arg6) = W0 m ρ c (Proc.devRef .tc main_arg6)
  host_keeps hostOps0

theorem W1_arg7 (c : Dev nD) :
    W1 (F := Ideal) m ρ c (Proc.devRef .tc main_arg7) = m ((c.tc : Thread nD τ).loc main_arg7) := by
  show StableHlo.after hostOps0 (W0 m ρ c) (Proc.devRef .tc main_arg7) = W0 m ρ c (Proc.devRef .tc main_arg7)
  host_keeps hostOps0

theorem W1_arg8 (c : Dev nD) :
    W1 (F := Ideal) m ρ c (Proc.devRef .tc main_arg8) = m ((c.tc : Thread nD τ).loc main_arg8) := by
  show StableHlo.after hostOps0 (W0 m ρ c) (Proc.devRef .tc main_arg8) = W0 m ρ c (Proc.devRef .tc main_arg8)
  host_keeps hostOps0

theorem W1_arg9 (c : Dev nD) :
    W1 (F := Ideal) m ρ c (Proc.devRef .tc main_arg9) = m ((c.tc : Thread nD τ).loc main_arg9) := by
  show StableHlo.after hostOps0 (W0 m ρ c) (Proc.devRef .tc main_arg9) = W0 m ρ c (Proc.devRef .tc main_arg9)
  host_keeps hostOps0

theorem W1_arg11 (c : Dev nD) :
    W1 (F := Ideal) m ρ c (Proc.devRef .tc main_arg11) = m ((c.tc : Thread nD τ).loc main_arg11) := by
  show StableHlo.after hostOps0 (W0 m ρ c) (Proc.devRef .tc main_arg11) = W0 m ρ c (Proc.devRef .tc main_arg11)
  host_keeps hostOps0

end Cert.KernelIdeal.Net

end
-- ==== Proof.Chain2.lean ====
/-
  The first region and the second stretch of host operations.

  The first region's output array is the first hidden layer of the arrays the first stretch left. The second stretch
  gathers and scatter-adds that layer over the edges, multiplies by the reciprocal degree, and transposes the second
  layer's weight matrices; it reads the edge rows and the reciprocal degree where the first stretch left them: the region
  owns none of those buffers, and no operation of the second stretch writes them.
-/
import proofs.«157790_j2173253452589_1_alg».proof.Proof.Chain1
import proofs.«157790_j2173253452589_1_alg».proof.Proof.Region0

set_option maxRecDepth 16384

noncomputable section

namespace Cert.KernelIdeal.Net

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## After the first region -/

/-- The first region's output array is the first hidden layer. -/
theorem W2_v26 (c : Dev nD) :
    W2 (F := Ideal) m ρ c (Proc.devRef .tc main_v26) = H1 m c := by
  refine (W2_arr m ρ c 5).trans ((final0 (V1 m ρ) c).trans ?_)
  rw [show V1 m ρ c main_v23 = _ from W1_v23 m ρ c,
    show V1 m ρ c main_arg0 = _ from W1_arg0 m ρ c,
    show V1 m ρ c main_v24 = _ from W1_v24 m ρ c,
    show V1 m ρ c main_v25 = _ from W1_v25 m ρ c,
    show V1 m ρ c main_arg4 = _ from W1_arg4 m ρ c]
  rfl

theorem W2_v1 (c : Dev nD) :
    W2 (F := Ideal) m ρ c (Proc.devRef .tc main_v1) = src m c :=
  (W2_of_ne m ρ c main_v1 (by decide)).trans (W1_v1 m ρ c)

theorem W2_v3 (c : Dev nD) :
    W2 (F := Ideal) m ρ c (Proc.devRef .tc main_v3) = dst m c :=
  (W2_of_ne m ρ c main_v3 (by decide)).trans (W1_v3 m ρ c)

theorem W2_v11 (c : Dev nD) :
    W2 (F := Ideal) m ρ c (Proc.devRef .tc main_v11) = Cert.Sage.degRecip (F := Ideal) (dst m c) :=
  (W2_of_ne m ρ c main_v11 (by decide)).trans (W1_v11 m ρ c)

theorem W2_arg5 (c : Dev nD) :
    W2 (F := Ideal) m ρ c (Proc.devRef .tc main_arg5) = m ((c.tc : Thread nD τ).loc main_arg5) :=
  (W2_of_ne m ρ c main_arg5 (by decide)).trans (W1_arg5 m ρ c)

theorem W2_arg6 (c : Dev nD) :
    W2 (F := Ideal) m ρ c (Proc.devRef .tc main_arg6) = m ((c.tc : Thread nD τ).loc main_arg6) :=
  (W2_of_ne m ρ c main_arg6 (by decide)).trans (W1_arg6 m ρ c)

theorem W2_arg7 (c : Dev nD) :
    W2 (F := Ideal) m ρ c (Proc.devRef .tc main_arg7) = m ((c.tc : Thread nD τ).loc main_arg7) :=
  (W2_of_ne m ρ c main_arg7 (by decide)).trans (W1_arg7 m ρ c)

theorem W2_arg8 (c : Dev nD) :
    W2 (F := Ideal) m ρ c (Proc.devRef .tc main_arg8) = m ((c.tc : Thread nD τ).loc main_arg8) :=
  (W2_of_ne m ρ c main_arg8 (by decide)).trans (W1_arg8 m ρ c)

theorem W2_arg9 (c : Dev nD) :
    W2 (F := Ideal) m ρ c (Proc.devRef .tc main_arg9) = m ((c.tc : Thread nD τ).loc main_arg9) :=
  (W2_of_ne m ρ c main_arg9 (by decide)).trans (W1_arg9 m ρ c)

theorem W2_arg11 (c : Dev nD) :
    W2 (F := Ideal) m ρ c (Proc.devRef .tc main_arg11) = m ((c.tc : Thread nD τ).loc main_arg11) :=
  (W2_of_ne m ρ c main_arg11 (by decide)).trans (W1_arg11 m ρ c)

/-! ## After the second stretch -/

/-- The mean of the first hidden layer over incoming edges. -/
theorem W3_v38 (c : Dev nD) :
    W3 (F := Ideal) m ρ c (Proc.devRef .tc main_v38) = Cert.Sage.meanMul128 (F := Ideal) (H1 m c) (src m c) (dst m c) := by
  show StableHlo.after hostOps1 (W2 m ρ c) (Proc.devRef .tc main_v38) = _
  after_results_simp
  rw [W2_v26 m ρ c, W2_v1 m ρ c, W2_v3 m ρ c, W2_v11 m ρ c]
  rfl

/-- The second layer's two weight matrices, transposed. -/
theorem W3_v39 (c : Dev nD) :
    W3 (F := Ideal) m ρ c (Proc.devRef .tc main_v39) = Cert.Sage.tr128 (F := Ideal) (m ((c.tc : Thread nD τ).loc main_arg5)) := by
  show StableHlo.after hostOps1 (W2 m ρ c) (Proc.devRef .tc main_v39) = _
  after_results_simp
  rw [W2_arg5 m ρ c]
  rfl

theorem W3_v40 (c : Dev nD) :
    W3 (F := Ideal) m ρ c (Proc.devRef .tc main_v40) = Cert.Sage.tr128 (F := Ideal) (m ((c.tc : Thread nD τ).loc main_arg6)) := by
  show StableHlo.after hostOps1 (W2 m ρ c) (Proc.devRef .tc main_v40) = _
  after_results_simp
  rw [W2_arg6 m ρ c]
  rfl

theorem W3_v26 (c : Dev nD) :
    W3 (F := Ideal) m ρ c (Proc.devRef .tc main_v26) = H1 m c := by
  refine Eq.trans ?_ (W2_v26 m ρ c)
  show StableHlo.after hostOps1 (W2 m ρ c) (Proc.devRef .tc main_v26) = W2 m ρ c (Proc.devRef .tc main_v26)
  host_keeps hostOps1

theorem W3_v1 (c : Dev nD) :
    W3 (F := Ideal) m ρ c (Proc.devRef .tc main_v1) = src m c := by
  refine Eq.trans ?_ (W2_v1 m ρ c)
  show StableHlo.after hostOps1 (W2 m ρ c) (Proc.devRef .tc main_v1) = W2 m ρ c (Proc.devRef .tc main_v1)
  host_keeps hostOps1

theorem W3_v3 (c : Dev nD) :
    W3 (F := Ideal) m ρ c (Proc.devRef .tc main_v3) = dst m c := by
  refine Eq.trans ?_ (W2_v3 m ρ c)
  show StableHlo.after hostOps1 (W2 m ρ c) (Proc.devRef .tc main_v3) = W2 m ρ c (Proc.devRef .tc main_v3)
  host_keeps hostOps1

theorem W3_v11 (c : Dev nD) :
    W3 (F := Ideal) m ρ c (Proc.devRef .tc main_v11) = Cert.Sage.degRecip (F := Ideal) (dst m c) := by
  refine Eq.trans ?_ (W2_v11 m ρ c)
  show StableHlo.after hostOps1 (W2 m ρ c) (Proc.devRef .tc main_v11) = W2 m ρ c (Proc.devRef .tc main_v11)
  host_keeps hostOps1

theorem W3_arg7 (c : Dev nD) :
    W3 (F := Ideal) m ρ c (Proc.devRef .tc main_arg7) = m ((c.tc : Thread nD τ).loc main_arg7) := by
  refine Eq.trans ?_ (W2_arg7 m ρ c)
  show StableHlo.after hostOps1 (W2 m ρ c) (Proc.devRef .tc main_arg7) = W2 m ρ c (Proc.devRef .tc main_arg7)
  host_keeps hostOps1

theorem W3_arg8 (c : Dev nD) :
    W3 (F := Ideal) m ρ c (Proc.devRef .tc main_arg8) = m ((c.tc : Thread nD τ).loc main_arg8) := by
  refine Eq.trans ?_ (W2_arg8 m ρ c)
  show StableHlo.after hostOps1 (W2 m ρ c) (Proc.devRef .tc main_arg8) = W2 m ρ c (Proc.devRef .tc main_arg8)
  host_keeps hostOps1

theorem W3_arg9 (c : Dev nD) :
    W3 (F := Ideal) m ρ c (Proc.devRef .tc main_arg9) = m ((c.tc : Thread nD τ).loc main_arg9) := by
  refine Eq.trans ?_ (W2_arg9 m ρ c)
  show StableHlo.after hostOps1 (W2 m ρ c) (Proc.devRef .tc main_arg9) = W2 m ρ c (Proc.devRef .tc main_arg9)
  host_keeps hostOps1

theorem W3_arg11 (c : Dev nD) :
    W3 (F := Ideal) m ρ c (Proc.devRef .tc main_arg11) = m ((c.tc : Thread nD τ).loc main_arg11) := by
  refine Eq.trans ?_ (W2_arg11 m ρ c)
  show StableHlo.after hostOps1 (W2 m ρ c) (Proc.devRef .tc main_arg11) = W2 m ρ c (Proc.devRef .tc main_arg11)
  host_keeps hostOps1

end Cert.KernelIdeal.Net

end
-- ==== Proof.Chain3.lean ====
/-
  The second region and the third stretch of host operations.

  The second region's output array is the second hidden layer of the arrays the second stretch left; the third stretch
  takes its mean over incoming edges and transposes the third layer's and the head's weight matrices, reading the edge
  rows and the reciprocal degree where the first stretch left them.
-/
import proofs.«157790_j2173253452589_1_alg».proof.Proof.Chain2
import proofs.«157790_j2173253452589_1_alg».proof.Proof.Region1

set_option maxRecDepth 16384

noncomputable section

namespace Cert.KernelIdeal.Net

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## After the second region -/

/-- The second region's output array is the second hidden layer. -/
theorem W4_v41 (c : Dev nD) :
    W4 (F := Ideal) m ρ c (Proc.devRef .tc main_v41) = H2 m c := by
  refine (W4_arr m ρ c 5).trans ((final1 (V3 m ρ) c).trans ?_)
  rw [show V3 m ρ c main_v38 = _ from W3_v38 m ρ c,
    show V3 m ρ c main_v26 = _ from W3_v26 m ρ c,
    show V3 m ρ c main_v39 = _ from W3_v39 m ρ c,
    show V3 m ρ c main_v40 = _ from W3_v40 m ρ c,
    show V3 m ρ c main_arg7 = _ from W3_arg7 m ρ c]
  rfl

theorem W4_v1 (c : Dev nD) :
    W4 (F := Ideal) m ρ c (Proc.devRef .tc main_v1) = src m c :=
  (W4_of_ne m ρ c main_v1 (by decide)).trans (W3_v1 m ρ c)

theorem W4_v3 (c : Dev nD) :
    W4 (F := Ideal) m ρ c (Proc.devRef .tc main_v3) = dst m c :=
  (W4_of_ne m ρ c main_v3 (by decide)).trans (W3_v3 m ρ c)

theorem W4_v11 (c : Dev nD) :
    W4 (F := Ideal) m ρ c (Proc.devRef .tc main_v11) = Cert.Sage.degRecip (F := Ideal) (dst m c) :=
  (W4_of_ne m ρ c main_v11 (by decide)).trans (W3_v11 m ρ c)

theorem W4_arg8 (c : Dev nD) :
    W4 (F := Ideal) m ρ c (Proc.devRef .tc main_arg8) = m ((c.tc : Thread nD τ).loc main_arg8) :=
  (W4_of_ne m ρ c main_arg8 (by decide)).trans (W3_arg8 m ρ c)

theorem W4_arg9 (c : Dev nD) :
    W4 (F := Ideal) m ρ c (Proc.devRef .tc main_arg9) = m ((c.tc : Thread nD τ).loc main_arg9) :=
  (W4_of_ne m ρ c main_arg9 (by decide)).trans (W3_arg9 m ρ c)

theorem W4_arg11 (c : Dev nD) :
    W4 (F := Ideal) m ρ c (Proc.devRef .tc main_arg11) = m ((c.tc : Thread nD τ).loc main_arg11) :=
  (W4_of_ne m ρ c main_arg11 (by decide)).trans (W3_arg11 m ρ c)

/-! ## After the third stretch -/

/-- The mean of the second hidden layer over incoming edges. -/
theorem W5_v53 (c : Dev nD) :
    W5 (F := Ideal) m ρ c (Proc.devRef .tc main_v53) = Cert.Sage.meanMul128 (F := Ideal) (H2 m c) (src m c) (dst m c) := by
  show StableHlo.after hostOps2 (W4 m ρ c) (Proc.devRef .tc main_v53) = _
  after_results_simp
  rw [W4_v41 m ρ c, W4_v1 m ρ c, W4_v3 m ρ c, W4_v11 m ρ c]
  rfl

/-- The third layer's and the head's weight matrices, transposed. -/
theorem W5_v54 (c : Dev nD) :
    W5 (F := Ideal) m ρ c (Proc.devRef .tc main_v54) = Cert.Sage.tr128 (F := Ideal) (m ((c.tc : Thread nD τ).loc main_arg8)) := by
  show StableHlo.after hostOps2 (W4 m ρ c) (Proc.devRef .tc main_v54) = _
  after_results_simp
  rw [W4_arg8 m ρ c]
  rfl

theorem W5_v55 (c : Dev nD) :
    W5 (F := Ideal) m ρ c (Proc.devRef .tc main_v55) = Cert.Sage.tr128 (F := Ideal) (m ((c.tc : Thread nD τ).loc main_arg9)) := by
  show StableHlo.after hostOps2 (W4 m ρ c) (Proc.devRef .tc main_v55) = _
  after_results_simp
  rw [W4_arg9 m ρ c]
  rfl

theorem W5_v56 (c : Dev nD) :
    W5 (F := Ideal) m ρ c (Proc.devRef .tc main_v56) = Cert.Sage.tr4 (F := Ideal) (m ((c.tc : Thread nD τ).loc main_arg11)) := by
  show StableHlo.after hostOps2 (W4 m ρ c) (Proc.devRef .tc main_v56) = _
  after_results_simp
  rw [W4_arg11 m ρ c]
  rfl

theorem W5_v41 (c : Dev nD) :
    W5 (F := Ideal) m ρ c (Proc.devRef .tc main_v41) = H2 m c := by
  refine Eq.trans ?_ (W4_v41 m ρ c)
  show StableHlo.after hostOps2 (W4 m ρ c) (Proc.devRef .tc main_v41) = W4 m ρ c (Proc.devRef .tc main_v41)
  host_keeps hostOps2

/-- An argument the third region reads through an input window: the region leaves an input's array as it found it, and
    the array ends as launched. -/
theorem W5_arg10 (c : Dev nD) :
    W5 (F := Ideal) m ρ c (Proc.devRef .tc main_arg10) = m ((c.tc : Thread nD τ).loc main_arg10) := by
  have h : W6 m ρ c (Proc.devRef .tc main_arg10) = W5 m ρ c (Proc.devRef .tc main_arg10) :=
    (W6_arr m ρ c 4).trans (((dat2 (V5 m ρ) c).arrAt_in 4 rfl _).trans (A_eq2 (V5 m ρ) c 4))
  exact h.symm.trans (W6_main_arg10 m ρ c)
theorem W5_arg12 (c : Dev nD) :
    W5 (F := Ideal) m ρ c (Proc.devRef .tc main_arg12) = m ((c.tc : Thread nD τ).loc main_arg12) := by
  have h : W6 m ρ c (Proc.devRef .tc main_arg12) = W5 m ρ c (Proc.devRef .tc main_arg12) :=
    (W6_arr m ρ c 6).trans (((dat2 (V5 m ρ) c).arrAt_in 6 rfl _).trans (A_eq2 (V5 m ρ) c 6))
  exact h.symm.trans (W6_main_arg12 m ρ c)

end Cert.KernelIdeal.Net

end
-- ==== Proof.Chain.lean ====
/-
  The idealized kernel's result buffer is the network (the mean spelt as a product with the reciprocal).

  The boundary contents `W0 … W6` fold the three stretches of host operations and the three regions over the launch
  memory. Read backwards from the result: region 2's output is head ∘ layer of the arrays it finds; those are host
  operations of region 1's output and of the edge columns and the reciprocal degrees computed before region 0, which no
  later operation and no region writes; and so on down to the arguments.
-/
import proofs.«157790_j2173253452589_1_alg».proof.Proof.Gen.KernelIdeal.Frame
import proofs.«157790_j2173253452589_1_alg».proof.Proof.Region0
import proofs.«157790_j2173253452589_1_alg».proof.Proof.Region1
import proofs.«157790_j2173253452589_1_alg».proof.Proof.Region2
import proofs.«157790_j2173253452589_1_alg».proof.Proof.Chain3
import Idealize.ShloMosaic.Lib.StableHlo.Run

set_option maxRecDepth 16384

noncomputable section

namespace Cert.KernelIdeal.Net

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The result buffer's final contents: the network of the argument arrays as launched. -/
theorem out_eq_netMul (c : Dev nD) :
    W6 (F := Ideal) m ρ c (Proc.devRef .tc main_v57)
      = Cert.Sage.netMul (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  -- the result buffer is the third region's output array: the head of the third layer of the arrays the region finds
  refine (W6_arr m ρ c 7).trans ((final2 (V5 m ρ) c).trans ?_)
  -- each of which the third stretch left as a piece of the network
  rw [show V5 m ρ c main_v53 = _ from W5_v53 m ρ c, show V5 m ρ c main_v41 = _ from W5_v41 m ρ c,
    show V5 m ρ c main_v54 = _ from W5_v54 m ρ c, show V5 m ρ c main_v55 = _ from W5_v55 m ρ c,
    show V5 m ρ c main_arg10 = _ from W5_arg10 m ρ c, show V5 m ρ c main_v56 = _ from W5_v56 m ρ c,
    show V5 m ρ c main_arg12 = _ from W5_arg12 m ρ c]
  -- and the layers compose as the network's definition says
  rfl

end Cert.KernelIdeal.Net

end
-- ==== Proof.Ref.lean ====
/-
  The reference's result is the network.

  The reference is a straight line of host operations; its run ends with the result buffer at the operations' composed
  term of the argument arrays. That term is `Cert.Sage.net` of the arguments letter for letter: each layer's mean is the
  quotient of the edge sum by `max(deg, 1)`, each relu a maximum with the zero splat.
-/
import proofs.«157790_j2173253452589_1_alg».proof.Proof.Gen.ReferenceIdeal.Run
import proofs.«157790_j2173253452589_1_alg».proof.Proof.Spec

noncomputable section

namespace Cert.Sage.Ref

open Cert.ReferenceIdeal Cert.ReferenceIdeal.Gen Idealize.ShloMosaic Idealize.ShloMosaic.TcCoe Idealize.SL.Sem

variable {F : FTy → Type} [FloatOps F]

set_option maxRecDepth 16384 in
/-- The composed term of the reference's run is `net` of the argument arrays. -/
theorem res_eq_net (m : (ℓ : Loc nD τ sig) → Buf (Elt F) ℓ) (c : Dev nD) :
    Cert.ReferenceIdeal.Value.res_main_v89 (F := F) m c
      = Cert.Sage.net (F := F) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) := by
  unfold Cert.ReferenceIdeal.Value.res_main_v89
  rfl

end Cert.Sage.Ref

end
-- ==== Proof.MeanLaw.lean ====
/-
  The mean over incoming edges: a product with the reciprocal of `max(deg, 1)` is the quotient by it.

  On the extended reals `x / y` is `x · y⁻¹` for every `y ≠ 0` (an infinite `y` has inverse `0`), so `1 / y = 1 · y⁻¹ = y⁻¹` and
  `x · (1 / y) = x · y⁻¹ = x / y` for EVERY extended real `x`: no finiteness is needed, only `y ≠ 0`. Here
  `y = max(deg n, 1) ≥ 1 > 0` whatever the degree is. Both spellings broadcast the same column [50000, 1] across the
  features, so the two arrays agree entry by entry.
-/
import proofs.«157790_j2173253452589_1_alg».proof.Proof.Spec
import Idealize.ShloMosaic.PureOps.IdealRules
import Idealize.ShloMosaic.Lib.Pipeline.Value

noncomputable section

namespace Cert.Sage

open Cert.ReferenceIdeal Cert.ReferenceIdeal.Gen Idealize.ShloMosaic Idealize.ShloMosaic.TcCoe Idealize.SL.Sem

/-- `x · (1 / y) = x / y` for every nonzero extended real `y`. -/
theorem mul_one_div (x y : EReal) (hy : y ≠ 0) : x * Ideal.div 1 y = Ideal.div x y := by
  unfold Ideal.div
  rw [if_neg hy, if_neg hy, one_mul]

/-- The pattern of `1.0` denotes `1`. -/
theorem ofBits_one : Ideal.ofBits .f32 0x3F800000#32 = 1 := IdealRules.sign_bit.ideal_onePat .f32

/-- The host's quotient, the product and the maximum of two arrays, at an index. -/
theorem hostDivf_apply {s : Shape} (a b : FVec Ideal s .f32) (i : s.Idx) : Host.divf a b i = Ideal.div (a i) (b i) := rfl
theorem mulf_apply' {s : Shape} (a b : FVec Ideal s .f32) (i : s.Idx) : mulf a b i = a i * b i := rfl
theorem maximumf_apply' {s : Shape} (a b : FVec Ideal s .f32) (i : s.Idx) : maximumf a b i = max (a i) (b i) := rfl

/-- The splat of `1.0` over the degree column, at an index. -/
theorem ones_apply (i : S50000x1.Idx) :
    broadcastInDim (α := Elt Ideal .f32) S50000x1 ![] bcast_S_S50000x1 (constant (F := Ideal) S_ .f32 0x3F800000#32) i = 1 := by
  generalize hy : constant (F := Ideal) S_ .f32 0x3F800000#32 = y
  refine (broadcastInDim_apply _ bcast_S_S50000x1 y i (fun a => a.elim0) (fun a => a.elim0)).trans ?_
  rw [← hy]
  exact ofBits_one

/-- `max(deg n, 1)` is not zero. -/
theorem degClamped_ne_zero (d : (⟨S600000, .i32⟩ : BufTy).Contents (Elt Ideal)) (i : S50000x1.Idx) :
    degClamped (F := Ideal) d i ≠ 0 := by
  have h : (1 : EReal) ≤ degClamped (F := Ideal) d i := by
    unfold degClamped
    rw [maximumf_apply', ones_apply]
    exact le_max_right _ _
  intro h0
  rw [h0] at h
  exact absurd h (by norm_num)

/-- The reciprocal column at an index. -/
theorem degRecip_apply (d : (⟨S600000, .i32⟩ : BufTy).Contents (Elt Ideal)) (i : S50000x1.Idx) :
    degRecip (F := Ideal) d i = Ideal.div 1 (degClamped (F := Ideal) d i) := by
  unfold degRecip
  rw [hostDivf_apply, ones_apply]

/-- The row of a [50000, 16] index as an index of the degree column. -/
abbrev row16 (i : S50000x16.Idx) : S50000x1.Idx := fun a => match a with
  | ⟨0, _⟩ => ⟨(i 0).val, (i 0).isLt⟩
  | ⟨1, _⟩ => ⟨0, Nat.one_pos⟩
abbrev row128 (i : S50000x128.Idx) : S50000x1.Idx := fun a => match a with
  | ⟨0, _⟩ => ⟨(i 0).val, (i 0).isLt⟩
  | ⟨1, _⟩ => ⟨0, Nat.one_pos⟩

/-- A column [50000, 1] broadcast across 16 features, at an index, is the column at the index's row. -/
theorem bcast16_apply (y : S50000x1.Idx → EReal) (i : S50000x16.Idx) :
    broadcastInDim (α := Elt Ideal .f32) S50000x16 ![0, 1] bcast_S50000x1_S50000x16_0_1 y i = y (row16 i) :=
  broadcastInDim_apply _ bcast_S50000x1_S50000x16_0_1 y i (row16 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])
theorem bcast128_apply (y : S50000x1.Idx → EReal) (i : S50000x128.Idx) :
    broadcastInDim (α := Elt Ideal .f32) S50000x128 ![0, 1] bcast_S50000x1_S50000x128_0_1 y i = y (row128 i) :=
  broadcastInDim_apply _ bcast_S50000x1_S50000x128_0_1 y i (row128 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

/-- The two spellings of the mean agree, 16 features. -/
theorem meanMul16_eq_mean16 (x : Arr (F := Ideal) S50000x16) (s d : (⟨S600000, .i32⟩ : BufTy).Contents (Elt Ideal)) :
    meanMul16 (F := Ideal) x s d = mean16 (F := Ideal) x s d := by
  funext i
  unfold meanMul16 mean16
  rw [mulf_apply', hostDivf_apply, bcast16_apply, bcast16_apply, degRecip_apply]
  exact mul_one_div _ _ (degClamped_ne_zero d _)

/-- The two spellings of the mean agree, 128 features. -/
theorem meanMul128_eq_mean128 (h : Arr (F := Ideal) S50000x128) (s d : (⟨S600000, .i32⟩ : BufTy).Contents (Elt Ideal)) :
    meanMul128 (F := Ideal) h s d = mean128 (F := Ideal) h s d := by
  funext i
  unfold meanMul128 mean128
  rw [mulf_apply', hostDivf_apply, bcast128_apply, bcast128_apply, degRecip_apply]
  exact mul_one_div _ _ (degClamped_ne_zero d _)

/-- So the network with the mean as a product is the network with the mean as a quotient. -/
theorem netMul_eq_net (x : Arr (F := Ideal) S50000x16) (ei : Edges (F := Ideal)) (Wl1 Wr1 : Arr (F := Ideal) S128x16) (b1 : Arr (F := Ideal) S128)
    (Wl2 Wr2 : Arr (F := Ideal) S128x128) (b2 : Arr (F := Ideal) S128) (Wl3 Wr3 : Arr (F := Ideal) S128x128) (b3 : Arr (F := Ideal) S128)
    (Wh : Arr (F := Ideal) S4x128) (bh : Arr (F := Ideal) S4) :
    netMul (F := Ideal) x ei Wl1 Wr1 b1 Wl2 Wr2 b2 Wl3 Wr3 b3 Wh bh = net (F := Ideal) x ei Wl1 Wr1 b1 Wl2 Wr2 b2 Wl3 Wr3 b3 Wh bh := by
  unfold netMul net
  simp only [meanMul16_eq_mean16, meanMul128_eq_mean128]

end Cert.Sage

end
-- ==== Proof.lean ====
/-
  The certificate of the three-layer graph network: the Pallas program against its jnp reference, on the extended reals.

  Both programs compute, for 50000 nodes and 600000 edges, three layers `relu(mean(h) · Wlᵀ + h · Wrᵀ + b)` (the mean over a
  node's incoming edges) and a linear head. They differ in two ways only. The reference divides each edge sum by
  `max(deg, 1)`, the kernel's program multiplies it by the reciprocal `1 / max(deg, 1)` computed once: on the extended reals a
  product with `1 / y` IS the quotient by `y` for every `y ≠ 0`, and `max(deg, 1) ≥ 1` (Proof/MeanLaw.lean; no finiteness is
  used). And the reference multiplies all 50000 rows by a weight matrix at once where each kernel region does it on ten
  blocks of 5000 rows; a row of a product depends only on that row of the left factor (Proof/Region0–2.lean over
  Proof/Payload.lean). The gather and the scatter-add are the same operations on the same operands on both sides and are
  never opened.

  The pieces: Proof/Spec.lean states the network as ONE function of the argument arrays (`net`; `netMul` with the mean as a
  product); Proof/Ref.lean: the reference's result is `net`; Proof/KernelRun.lean: the kernel program's run with its result
  buffer named; Proof/Chain.lean: that buffer holds `netMul`; here the three frames (generated), `preserves` (the idealizing
  pass rewrote nothing), and the two runs side by side.
-/
import proofs.«157790_j2173253452589_1_alg».proof.Defs
import proofs.«157790_j2173253452589_1_alg».proof.Proof.Gen.Kernel
import proofs.«157790_j2173253452589_1_alg».proof.Proof.Gen.Kernel.Skeleton
import proofs.«157790_j2173253452589_1_alg».proof.Proof.Gen.Kernel.Launch
import proofs.«157790_j2173253452589_1_alg».proof.Proof.Gen.Kernel.Points
import proofs.«157790_j2173253452589_1_alg».proof.Proof.Gen.Kernel.Frame
import proofs.«157790_j2173253452589_1_alg».proof.Proof.Gen.KernelIdeal
import proofs.«157790_j2173253452589_1_alg».proof.Proof.Gen.KernelIdeal.Skeleton
import proofs.«157790_j2173253452589_1_alg».proof.Proof.Gen.KernelIdeal.Launch
import proofs.«157790_j2173253452589_1_alg».proof.Proof.Gen.KernelIdeal.Points
import proofs.«157790_j2173253452589_1_alg».proof.Proof.Gen.KernelIdeal.Frame
import proofs.«157790_j2173253452589_1_alg».proof.Proof.Gen.ReferenceIdeal
import proofs.«157790_j2173253452589_1_alg».proof.Proof.Gen.Pre_finite_inputs
import proofs.«157790_j2173253452589_1_alg».proof.Proof.Gen.ReferenceIdeal.Run
import proofs.«157790_j2173253452589_1_alg».proof.Proof.KernelRun
import proofs.«157790_j2173253452589_1_alg».proof.Proof.Chain
import proofs.«157790_j2173253452589_1_alg».proof.Proof.Ref
import proofs.«157790_j2173253452589_1_alg».proof.Proof.MeanLaw
import Idealize.ShloMosaic.Adequacy
import Idealize.ShloMosaic.Init

noncomputable section

namespace Cert.Proof

open Idealize.ShloMosaic Idealize.ShloMosaic.TcCoe Idealize.SL.Sem

/-- The word-level program runs and leaves its arguments alone (generated). -/
theorem frame_kernel : Cert.frame_Kernel := fun m ρ _ => Cert.Kernel.Gen.frame m ρ
/-- The idealized program runs and leaves its arguments alone (generated). -/
theorem frame_kernelIdeal : Cert.frame_KernelIdeal := fun m ρ _ => Cert.KernelIdeal.Gen.frame m ρ
/-- The reference runs and leaves its arguments alone: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealizing pass rewrote no operation. -/
theorem preserves : Cert.preserves_Kernel_KernelIdeal := trivial

/-- From memories agreeing on the arguments both programs end with the network `net` of the arguments in their result
    buffers: the kernel's program with the mean as a product with the reciprocal, which is the quotient. -/
theorem algebraic : Cert.algebraic_KernelIdeal_ReferenceIdeal := by
  intro m ρ m' ρ' _ hagree
  refine ⟨fun c => Cert.Sage.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩) (Cert.KernelIdeal.GenP.run_out (F := Ideal) m ρ)
    exact (Cert.KernelIdeal.Net.out_eq_netMul m ρ c).trans (Cert.Sage.netMul_eq_net _ _ _ _ _ _ _ _ _ _ _ _ _)
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8, h9, h10, h11, h12⟩ := hagree c
    rw [Cert.Sage.Ref.res_eq_net, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
